-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 63
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x1, .f32⟩
  | .hbm, ⟨54, _⟩ => ⟨S_, .f32⟩
  | .hbm, ⟨55, _⟩ => ⟨S100000x1, .f32⟩
  | .hbm, ⟨56, _⟩ => ⟨S1700000x1, .i32⟩
  | .hbm, ⟨57, _⟩ => ⟨S100000x1, .f32⟩
  | .hbm, ⟨58, _⟩ => ⟨S100000x1, .f32⟩
  | .hbm, ⟨59, _⟩ => ⟨S1x1, .f32⟩
  | .hbm, ⟨60, _⟩ => ⟨S100000x1, .f32⟩
  | .hbm, ⟨61, _⟩ => ⟨S100000x1, .f32⟩
  | .hbm, ⟨62, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x1, .f32⟩
  | .local _ .vmem, ⟨13, _⟩ => ⟨S5000x1, .f32⟩
  | .local _ .vmem, ⟨14, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_c : Ref sig .tc := ⟨.hbm, 29, rfl⟩
abbrev main_call0_v17 : Ref sig .tc := ⟨.hbm, 30, rfl⟩
abbrev main_call0_v18 : Ref sig .tc := ⟨.hbm, 31, rfl⟩
abbrev main_call0_c_3 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_cst_4 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_c_5 : Ref sig .tc := ⟨.hbm, 45, rfl⟩
abbrev main_call0_v30 : Ref sig .tc := ⟨.hbm, 46, rfl⟩
abbrev main_call0_v31 : Ref sig .tc := ⟨.hbm, 47, rfl⟩
abbrev main_call0_c_6 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_cst_7 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_v0 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  shapeCasts_S100000x1_S100000 : S100000x1.ShapeCasts S100000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v29) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x1, .f32⟩
  | 5 => ⟨S1, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S100000x1, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x1, .f32⟩
  | 119 => ⟨S1700000x1, .f32⟩
  | 120 => ⟨S1700000x1, .f32⟩
  | 121 => ⟨S_, .f32⟩
  | 122 => ⟨S100000x1, .f32⟩
  | 123 => ⟨S1700000x1, .i32⟩
  | 124 => ⟨S100000x1, .f32⟩
  | 125 => ⟨S1x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KRun.lean ====
/-
  The run of the kernel's program with its result named.

  From any launch memory `m` with zero counters, every weakly fair execution of the program on the TensorCores
  terminates, nothing faulting, and in every final state the result buffer holds the value the fold of buffer contents
  through the program assigns to it (`Gen.W5 m ρ c` at the result's reference: the launch memory carried through the
  first stretch of host operations, the first region, the second stretch, the second region and the last stretch),
  while the six argument arrays are as launched.

  The run is the launch over the program's segments; the thread state at the return says that every unscoped buffer
  holds the fold's value, and the result buffer is one of the unscoped buffers.
-/
import proofs.«177966_j7997229105851_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without fault, and every final state has the
    result buffer at the fold's value and the six arguments as launched. -/
theorem run_value : θ_run defs (onTc (τ := τ) (main (F := F))) ⟨m, fun _ => 0, ρ⟩ (fun r => ∀ c : Dev nD,
      r.2.mem ((c.tc : Thread nD τ).loc main_v0) = Gen.W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

/-- info: 'Cert.KernelIdeal.KRun.run_value' depends on axioms: [propext, Classical.choice, Quot.sound] -/
#guard_msgs in #print axioms run_value

end Cert.KernelIdeal.KRun

end
-- ==== Proof.KTerms.lean ====
/-
  The host side of the kernel's program as pure terms of its arguments, named once so that every module speaks of the
  same terms. With `ei` the edge list (row 0 the sources, row 1 the destinations of the 1 600 000 edges):
  `srcV`, `dstV` — sources and destinations with the 100 000 self loops appended; `srcN` — the sources with a negative
  index moved up by the node count (what a gather reads); `degV` — each node's in-degree, the scatter-sum of ones over the
  destinations; `dinvV` / `dinv2` — its inverse square root where positive, zero elsewhere, as a vector and as a column;
  `agg1 h` — the scatter-sum over destinations of the rows of `h` gathered at the sources; `b1row` — the first bias as a
  row; `outV b2 h2` — the scatter-sum over destinations of the column `h2` gathered at the sources, scaled by the
  destination's factor, the second bias added, as a vector.
-/
import proofs.«177966_j7997229105851_2_alg».proof.KernelIdeal
import proofs.«177966_j7997229105851_2_alg».proof.Proof.Gen.KernelIdeal

noncomputable section

namespace Cert.KernelIdeal.KTerms

open Idealize.ShloMosaic Cert.KernelIdeal Cert.KernelIdeal.Gen

variable {F : FTy → Type} [FloatOps F]

def srcV (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

def dstV (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

def srcN (ei : IVec S2x1600000 32) : IVec S1700000 32 :=
  select (cmpi .slt (srcV ei) (broadcastInDim S1700000 ![] bcast_S_S1700000 (constantI S_ 32 0#32))) (addi (srcV ei) (broadcastInDim S1700000 ![] bcast_S_S1700000 (constantI S_ 32 100000#32))) (srcV ei)

def srcB (ei : IVec S2x1600000 32) : IVec S1700000x1 32 := broadcastInDim S1700000x1 ![0] bcast_S1700000_S1700000x1_0 (srcN ei)

def dstB (ei : IVec S2x1600000 32) : IVec S1700000x1 32 := broadcastInDim S1700000x1 ![0] bcast_S1700000_S1700000x1_0 (dstV ei)

def degV (ei : IVec S2x1600000 32) : FVec F S100000 .f32 :=
  Host.scatterAdd scatter_S100000_S1700000x1_S1700000_n_0_0_1 (broadcastInDim S100000 ![] bcast_S_S100000 (constant S_ .f32 0x00000000#32)) (dstB ei) (broadcastInDim S1700000 ![] bcast_S_S1700000 (constant S_ .f32 0x3F800000#32))

def dinvV (ei : IVec S2x1600000 32) : FVec F S100000 .f32 :=
  select (cmpf (F := F) .ogt (degV ei) (broadcastInDim S100000 ![] bcast_S_S100000 (constant S_ .f32 0x00000000#32))) (Host.rsqrt (degV ei)) (broadcastInDim S100000 ![] bcast_S_S100000 (id (constant S_ .f32 0x00000000#32)))

def dinv2 (ei : IVec S2x1600000 32) : FVec F S100000x1 .f32 := shapeCast S100000x1 (dinvV (F := F) ei) shapeCasts_S100000_S100000x1

def agg1 (ei : IVec S2x1600000 32) (h : FVec F S100000x128 .bf16) : FVec F S100000x128 .f32 :=
  Host.scatterAdd scatter_S100000x128_S1700000x1_S1700000x128_1_0_0_1 (broadcastInDim S100000x128 ![] bcast_S_S100000x128 (constant S_ .f32 0x00000000#32)) (dstB ei) (extf .f32 (Host.gather gather_S100000x128_S1700000x1_S1700000x128_1_0_n_n_0_1_1128 h (srcB ei)) bitsLt_bf16_f32)

def b1row (b1 : FVec F S128 .f32) : FVec F S1x128 .f32 := shapeCast S1x128 b1 shapeCasts_S128_S1x128

def outV (ei : IVec S2x1600000 32) (b2 : FVec F S1 .f32) (h2 : FVec F S100000x1 .f32) : FVec F S100000 .f32 :=
  shapeCast S100000 (addf (mulf (Host.scatterAdd scatter_S100000x1_S1700000x1_S1700000x1_1_0_0_1 (broadcastInDim S100000x1 ![] bcast_S_S100000x1 (constant S_ .f32 0x00000000#32)) (dstB ei) (Host.gather gather_S100000x1_S1700000x1_S1700000x1_1_0_n_n_0_1_11 h2 (srcB ei))) (dinv2 (F := F) ei)) (broadcastInDim S100000x1 ![0, 1] bcast_S1x1_S100000x1_0_1 (shapeCast S1x1 b2 shapeCasts_S1_S1x1))) shapeCasts_S100000x1_S100000

end Cert.KernelIdeal.KTerms

end
-- ==== Proof.KHost.lean ====
/-
  What the buffers that matter hold at each boundary of the kernel's program, as pure terms of the launch memory.

  The program is three stretches of host operations around two regions. The contents of core `c`'s buffers at each
  boundary are a fold from the launch memory `m`: a stretch rewrites the buffers its operations write, each to its
  operation's function of the contents before, and leaves every other buffer; a region leaves in its output array what
  its write-backs leave and leaves every other buffer, its input arrays included.

  Read buffer by buffer, with `ei` the launched edge list:
  * at the first region's entry its windows are the features and the first weights as launched and the column of
    normalising factors `dinv2 ei` (`V1_x`, `V1_w`, `V1_d`);
  * at the second region's entry its windows are `agg1 ei h` — the scatter-sum over the destinations of the rows of the
    first region's output `h` gathered at the sources —, the same factors, the first bias as a row and the second weights
    as launched (`V3_a`, `V3_d`, `V3_b`, `V3_w`);
  * at the return the result buffer is `outV ei b2 h2`, with `h2` the second region's output and `b2` the second bias
    as launched (`W5_out`).
  The sources and destinations with the self loops appended are written by the first stretch and read by the second
  and the third; no region has them among its arrays and no later operation writes them, so they reach every reader as
  the first stretch left them. The factors are an input array of both regions, which a region never writes.
-/
import proofs.«177966_j7997229105851_2_alg».proof.Proof.Gen.KernelIdeal.Frame
import proofs.«177966_j7997229105851_2_alg».proof.Proof.KTerms

set_option maxRecDepth 16384

noncomputable section

namespace Cert.KernelIdeal.KHost

open Idealize.ShloMosaic Idealize.ShloMosaic.TcCoe Idealize.ShloMosaic.Tactic
open Idealize.ShloMosaic.StableHlo (after_cons after_nil)
open Cert.KernelIdeal Cert.KernelIdeal.Gen

variable {F : FTy → Type} [FloatOps F]

variable (m : (ℓ : Loc nD τ sig) → Buf (Elt F) ℓ) (ρ : Dev nD → PrngReg)

/-! ## The gather's sources and the two aggregations, as functions of the index vectors -/

/-- The sources as a gather reads them: a negative index moved up by the node count. -/
def wrapIdx (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- The scatter-sum over the destinations `d` of the rows of `h` gathered at the sources `s`, widened to f32. -/
def aggOf (s d : IVec S1700000 32) (h : FVec F S100000x128 .bf16) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (extf .f32 (Host.gather gather_S100000x128_S1700000x1_S1700000x128_1_0_n_n_0_1_1128 h (broadcastInDim S1700000x1 ![0] bcast_S1700000_S1700000x1_0 (wrapIdx s))) bitsLt_bf16_f32)

/-- The scatter-sum over the destinations `d` of the column `h2` gathered at the sources `s`, scaled by the column
    `dv`, the bias `b2` added, as a vector. -/
def outOf (s d : IVec S1700000 32) (dv : FVec F S100000x1 .f32) (b2 : FVec F S1 .f32) (h2 : FVec F S100000x1 .f32) : FVec F S100000 .f32 :=
  shapeCast S100000 (addf (mulf (Host.scatterAdd scatter_S100000x1_S1700000x1_S1700000x1_1_0_0_1 (broadcastInDim S100000x1 ![] bcast_S_S100000x1 (constant S_ .f32 0x00000000#32)) (broadcastInDim S1700000x1 ![0] bcast_S1700000_S1700000x1_0 d) (Host.gather gather_S100000x1_S1700000x1_S1700000x1_1_0_n_n_0_1_11 h2 (broadcastInDim S1700000x1 ![0] bcast_S1700000_S1700000x1_0 (wrapIdx s)))) dv) (broadcastInDim S100000x1 ![0, 1] bcast_S1x1_S100000x1_0_1 (shapeCast S1x1 b2 shapeCasts_S1_S1x1))) shapeCasts_S100000x1_S100000

theorem aggOf_eq (ei : IVec S2x1600000 32) (h : FVec F S100000x128 .bf16) :
    aggOf (KTerms.srcV ei) (KTerms.dstV ei) h = KTerms.agg1 ei h := rfl

theorem outOf_eq (ei : IVec S2x1600000 32) (b2 : FVec F S1 .f32) (h2 : FVec F S100000x1 .f32) :
    outOf (KTerms.srcV ei) (KTerms.dstV ei) (KTerms.dinv2 (F := F) ei) b2 h2 = KTerms.outV ei b2 h2 := rfl

/-! ## Each stretch of host operations, from any buffer contents `V` -/

section Stretches

variable (V : Valuation τ sig (Elt F))

/-- The buffers the first stretch writes. -/
def wr0 : List (Ref sig .tc) :=
  [main_call0_v0, main_call0_v1, main_call0_v2, main_call0_v3, main_call0_v4, main_call0_v5, main_call0_v6, main_call0_cst, main_call0_v7,
   main_call0_cst_0, main_call0_v8, main_call0_v9, main_call0_v10, main_call0_cst_1, main_call0_v11, main_call0_v12, main_call0_v13,
   main_call0_cst_2, main_call0_call0_v0, main_call0_call0_v1, main_call0_v14, main_call0_v15]
/-- The buffers the second stretch writes. -/
def wr1 : List (Ref sig .tc) :=
  [main_call0_c, main_call0_v17, main_call0_v18, main_call0_c_3, main_call0_v19, main_call0_v20, main_call0_v21, main_call0_v22,
   main_call0_v23, main_call0_v24, main_call0_cst_4, main_call0_v25, main_call0_v26, main_call0_v27, main_call0_v28]
/-- The buffers the third stretch writes. -/
def wr2 : List (Ref sig .tc) :=
  [main_call0_c_5, main_call0_v30, main_call0_v31, main_call0_c_6, main_call0_v32, main_call0_v33, main_call0_v34, main_call0_v35,
   main_call0_v36, main_call0_cst_7, main_call0_v37, main_call0_v38, main_call0_v39, main_call0_v40, main_call0_v41, main_call0_v42,
   main_call0_v43, main_v0]

/-- A buffer the first stretch does not write holds after it what it held before. -/
theorem keep0 (r : Ref sig .tc) (hr : r ∉ wr0) :
    StableHlo.after (hostOps0 (F := F)) V (Proc.devRef .tc r) = V (Proc.devRef .tc r) :=
  StableHlo.after_of_writes_sub (W := wr0) hostOps0 V (by
    simp only [hostOps0, wr0, List.Forall, StableHlo.nullary_writes, StableHlo.unary_writes, StableHlo.binary_writes, StableHlo.ternary_writes,
      StableHlo.reshape_writes, Finset.singleton_subset_iff, List.mem_toFinset, List.mem_map]
    repeat' apply And.intro
    all_goals exact ⟨_, by decide, rfl⟩) hr
/-- A buffer the second stretch does not write holds after it what it held before. -/
theorem keep1 (r : Ref sig .tc) (hr : r ∉ wr1) :
    StableHlo.after (hostOps1 (F := F)) V (Proc.devRef .tc r) = V (Proc.devRef .tc r) :=
  StableHlo.after_of_writes_sub (W := wr1) hostOps1 V (by
    simp only [hostOps1, wr1, List.Forall, StableHlo.nullary_writes, StableHlo.unary_writes, StableHlo.binary_writes, StableHlo.ternary_writes,
      StableHlo.reshape_writes, Finset.singleton_subset_iff, List.mem_toFinset, List.mem_map]
    repeat' apply And.intro
    all_goals exact ⟨_, by decide, rfl⟩) hr
/-- A buffer the third stretch does not write holds after it what it held before. -/
theorem keep2 (r : Ref sig .tc) (hr : r ∉ wr2) :
    StableHlo.after (hostOps2 (F := F)) V (Proc.devRef .tc r) = V (Proc.devRef .tc r) :=
  StableHlo.after_of_writes_sub (W := wr2) hostOps2 V (by
    simp only [hostOps2, wr2, List.Forall, StableHlo.nullary_writes, StableHlo.unary_writes, StableHlo.binary_writes, StableHlo.ternary_writes,
      StableHlo.reshape_writes, Finset.singleton_subset_iff, List.mem_toFinset, List.mem_map]
    repeat' apply And.intro
    all_goals exact ⟨_, by decide, rfl⟩) hr

open StableHlo in
/-- After the first stretch: the sources with the self loops appended, -/
theorem s0_src : StableHlo.after (hostOps0 (F := F)) V (Proc.devRef .tc main_call0_v3) = KTerms.srcV (V (Proc.devRef .tc main_arg1)) := by
  after_results; rfl
open StableHlo in
/-- the destinations with the self loops appended, -/
theorem s0_dst : StableHlo.after (hostOps0 (F := F)) V (Proc.devRef .tc main_call0_v6) = KTerms.dstV (V (Proc.devRef .tc main_arg1)) := by
  after_results; rfl
open StableHlo in
/-- and the normalising factors as a column. -/
theorem s0_dinv : StableHlo.after (hostOps0 (F := F)) V (Proc.devRef .tc main_call0_v15) = KTerms.dinv2 (F := F) (V (Proc.devRef .tc main_arg1)) := by
  after_results; rfl

open StableHlo in
/-- After the second stretch: the aggregation of the first layer's rows, -/
theorem s1_agg : StableHlo.after (hostOps1 (F := F)) V (Proc.devRef .tc main_call0_v27)
    = aggOf (V (Proc.devRef .tc main_call0_v3)) (V (Proc.devRef .tc main_call0_v6)) (V (Proc.devRef .tc main_call0_v16)) := by
  after_results; rfl
open StableHlo in
/-- and the first bias as a row. -/
theorem s1_bias : StableHlo.after (hostOps1 (F := F)) V (Proc.devRef .tc main_call0_v28) = KTerms.b1row (V (Proc.devRef .tc main_arg3)) := by
  after_results; rfl

open StableHlo in
/-- After the third stretch: the result. -/
theorem s2_out : StableHlo.after (hostOps2 (F := F)) V (Proc.devRef .tc main_v0)
    = outOf (V (Proc.devRef .tc main_call0_v3)) (V (Proc.devRef .tc main_call0_v6)) (V (Proc.devRef .tc main_call0_v15)) (V (Proc.devRef .tc main_arg5)) (V (Proc.devRef .tc main_call0_v29)) := by
  after_results_simp; rfl

end Stretches

/-! ## The fold of buffer contents through the program, buffer by buffer -/

section Fold

variable (c : Dev nD)

/-! ### At the first region's entry -/

theorem W1_keep (r : Ref sig .tc) (hr : r ∉ wr0) : W1 m ρ c (Proc.devRef .tc r) = (m ((c : Thread nD τ).loc r)) :=
  keep0 (W0 m ρ c) r hr
theorem W1_src : W1 m ρ c (Proc.devRef .tc main_call0_v3) = KTerms.srcV (m ((c : Thread nD τ).loc main_arg1)) := s0_src (W0 m ρ c)
theorem W1_dst : W1 m ρ c (Proc.devRef .tc main_call0_v6) = KTerms.dstV (m ((c : Thread nD τ).loc main_arg1)) := s0_dst (W0 m ρ c)
theorem W1_dinv : W1 m ρ c (Proc.devRef .tc main_call0_v15) = KTerms.dinv2 (F := F) (m ((c : Thread nD τ).loc main_arg1)) := s0_dinv (W0 m ρ c)

/-- The first region's first window is the features as launched, -/
theorem V1_x : V1 m ρ c (Pipeline.arrRef spec0 0) = (m ((c : Thread nD τ).loc main_arg0)) := W1_keep m ρ c main_arg0 (by decide)
/-- its second the first layer's weights as launched, -/
theorem V1_w : V1 m ρ c (Pipeline.arrRef spec0 1) = (m ((c : Thread nD τ).loc main_arg2)) := W1_keep m ρ c main_arg2 (by decide)
/-- its third the normalising factors of the launched edge list. -/
theorem V1_d : V1 m ρ c (Pipeline.arrRef spec0 2) = KTerms.dinv2 (F := F) (m ((c : Thread nD τ).loc main_arg1)) := W1_dinv m ρ c

/-! ### At the first region's exit: its output array at what its write-backs leave, every other buffer as entered -/

theorem W2_keep (r : Ref sig .tc) (hw : ∀ w, Pipeline.arrRef spec0 w ≠ r) (hr : r ∉ wr0) : W2 m ρ c (Proc.devRef .tc r) = (m ((c : Thread nD τ).loc r)) :=
  (W2_of_ne m ρ c r hw).trans (W1_keep m ρ c r hr)
theorem W2_src : W2 m ρ c (Proc.devRef .tc main_call0_v3) = KTerms.srcV (m ((c : Thread nD τ).loc main_arg1)) :=
  (W2_of_ne m ρ c main_call0_v3 (by decide)).trans (W1_src m ρ c)
theorem W2_dst : W2 m ρ c (Proc.devRef .tc main_call0_v6) = KTerms.dstV (m ((c : Thread nD τ).loc main_arg1)) :=
  (W2_of_ne m ρ c main_call0_v6 (by decide)).trans (W1_dst m ρ c)
/-- The factors are an input window of the region: never written. -/
theorem W2_dinv : W2 m ρ c (Proc.devRef .tc main_call0_v15) = KTerms.dinv2 (F := F) (m ((c : Thread nD τ).loc main_arg1)) :=
  (W2_arr m ρ c 2).trans (((dat0 (V1 m ρ) c).arrAt_in 2 rfl _).trans ((A_eq0 (V1 m ρ) c 2).trans (W1_dinv m ρ c)))
theorem W2_h : W2 m ρ c (Proc.devRef .tc main_call0_v16) = (dat0 (V1 m ρ) c).arrAt 3 cfg0.N := W2_arr m ρ c 3

/-! ### At the second region's entry -/

theorem W3_keep (r : Ref sig .tc) (hw : ∀ w, Pipeline.arrRef spec0 w ≠ r) (h0 : r ∉ wr0) (h1 : r ∉ wr1) :
    W3 m ρ c (Proc.devRef .tc r) = (m ((c : Thread nD τ).loc r)) :=
  (keep1 (W2 m ρ c) r h1).trans (W2_keep m ρ c r hw h0)
theorem W3_src : W3 m ρ c (Proc.devRef .tc main_call0_v3) = KTerms.srcV (m ((c : Thread nD τ).loc main_arg1)) :=
  (keep1 (W2 m ρ c) main_call0_v3 (by decide)).trans (W2_src m ρ c)
theorem W3_dst : W3 m ρ c (Proc.devRef .tc main_call0_v6) = KTerms.dstV (m ((c : Thread nD τ).loc main_arg1)) :=
  (keep1 (W2 m ρ c) main_call0_v6 (by decide)).trans (W2_dst m ρ c)
theorem W3_dinv : W3 m ρ c (Proc.devRef .tc main_call0_v15) = KTerms.dinv2 (F := F) (m ((c : Thread nD τ).loc main_arg1)) :=
  (keep1 (W2 m ρ c) main_call0_v15 (by decide)).trans (W2_dinv m ρ c)
theorem W3_agg : W3 m ρ c (Proc.devRef .tc main_call0_v27) = KTerms.agg1 (m ((c : Thread nD τ).loc main_arg1)) ((dat0 (V1 m ρ) c).arrAt 3 cfg0.N) := by
  rw [show W3 m ρ c (Proc.devRef .tc main_call0_v27) = _ from s1_agg (W2 m ρ c), W2_src m ρ c, W2_dst m ρ c, W2_h m ρ c]
  exact aggOf_eq _ _
theorem W3_bias : W3 m ρ c (Proc.devRef .tc main_call0_v28) = KTerms.b1row (m ((c : Thread nD τ).loc main_arg3)) := by
  rw [show W3 m ρ c (Proc.devRef .tc main_call0_v28) = _ from s1_bias (W2 m ρ c), W2_keep m ρ c main_arg3 (by decide) (by decide)]

/-- The second region's first window is the aggregation of the first region's output over the launched edge list, -/
theorem V3_a : V3 m ρ c (Pipeline.arrRef spec1 0) = KTerms.agg1 (m ((c : Thread nD τ).loc main_arg1)) ((dat0 (V1 m ρ) c).arrAt 3 cfg0.N) := W3_agg m ρ c
/-- its second the normalising factors, -/
theorem V3_d : V3 m ρ c (Pipeline.arrRef spec1 1) = KTerms.dinv2 (F := F) (m ((c : Thread nD τ).loc main_arg1)) := W3_dinv m ρ c
/-- its third the first bias as a row, -/
theorem V3_b : V3 m ρ c (Pipeline.arrRef spec1 2) = KTerms.b1row (m ((c : Thread nD τ).loc main_arg3)) := W3_bias m ρ c
/-- its fourth the second layer's weights as launched. -/
theorem V3_w : V3 m ρ c (Pipeline.arrRef spec1 3) = (m ((c : Thread nD τ).loc main_arg4)) :=
  W3_keep m ρ c main_arg4 (by decide) (by decide) (by decide)

/-! ### At the second region's exit -/

theorem W4_src : W4 m ρ c (Proc.devRef .tc main_call0_v3) = KTerms.srcV (m ((c : Thread nD τ).loc main_arg1)) :=
  (W4_of_ne m ρ c main_call0_v3 (by decide)).trans (W3_src m ρ c)
theorem W4_dst : W4 m ρ c (Proc.devRef .tc main_call0_v6) = KTerms.dstV (m ((c : Thread nD τ).loc main_arg1)) :=
  (W4_of_ne m ρ c main_call0_v6 (by decide)).trans (W3_dst m ρ c)
/-- The factors are an input window of this region too. -/
theorem W4_dinv : W4 m ρ c (Proc.devRef .tc main_call0_v15) = KTerms.dinv2 (F := F) (m ((c : Thread nD τ).loc main_arg1)) :=
  (W4_arr m ρ c 1).trans (((dat1 (V3 m ρ) c).arrAt_in 1 rfl _).trans ((A_eq1 (V3 m ρ) c 1).trans (W3_dinv m ρ c)))
theorem W4_b2 : W4 m ρ c (Proc.devRef .tc main_arg5) = (m ((c : Thread nD τ).loc main_arg5)) :=
  (W4_of_ne m ρ c main_arg5 (by decide)).trans (W3_keep m ρ c main_arg5 (by decide) (by decide) (by decide))
theorem W4_h2 : W4 m ρ c (Proc.devRef .tc main_call0_v29) = (dat1 (V3 m ρ) c).arrAt 4 cfg1.N := W4_arr m ρ c 4

/-! ### At the return -/

/-- The result buffer holds the second aggregation of the second region's output over the launched edge list, scaled,
    the second bias added. -/
theorem W5_out : W5 m ρ c (Proc.devRef .tc main_v0)
    = KTerms.outV (m ((c : Thread nD τ).loc main_arg1)) (m ((c : Thread nD τ).loc main_arg5)) ((dat1 (V3 m ρ) c).arrAt 4 cfg1.N) := by
  rw [show W5 m ρ c (Proc.devRef .tc main_v0) = _ from s2_out (W4 m ρ c), W4_src m ρ c, W4_dst m ρ c, W4_dinv m ρ c, W4_b2 m ρ c, W4_h2 m ρ c]
  exact outOf_eq _ _ _

end Fold

/-- info: 'Cert.KernelIdeal.KHost.V3_a' depends on axioms: [propext, Classical.choice, Quot.sound] -/
#guard_msgs in #print axioms V3_a
/-- info: 'Cert.KernelIdeal.KHost.W5_out' depends on axioms: [propext, Classical.choice, Quot.sound] -/
#guard_msgs in #print axioms W5_out

end Cert.KernelIdeal.KHost

end
-- ==== Proof.Spec.lean ====
/-
  The two dense pieces of the two-layer graph convolution, index by index on the extended reals, and the two laws of
  the extended reals the certificate rests on.

  * `projScale x w d p q`  = (∑ₖ x[p,k] · w[k,q]) · d[p,0]: row `p` of `x` against column `q` of `w`, scaled by row
    `p`'s factor (the first layer's projection, every row pre-multiplied by its node's normalising factor).
  * `finishProj a d b w p` = (∑ₖ max(a[p,k] · d[p,0] + b[0,k], 0) · w[k,0]) · d[p,0]: the aggregated row scaled by its
    node's factor, the bias added, the positive part taken, projected on the one output column and scaled again.
  * A finite sum times a NONNEGATIVE REAL is the sum of the products (`sum_mul_of_nonneg_ne_top`): on the extended reals
    multiplication by a nonnegative real distributes over every sum, infinite terms included, so the normalising factor
    of the destination node can be moved out of (or into) the sum over the incoming edges with no finiteness assumption.
  * The normalising factor `if 0 < t then rsqrt t else 0` is a nonnegative real for EVERY extended real `t`
    (`dinvOf_nonneg`, `dinvOf_ne_top`): the inverse square root of a positive real is a positive real, that of +∞ is 0.
-/
import Idealize.ShloMosaic.PureOps.Ideal
import Idealize.ShloMosaic.Lib.ValueIdx

noncomputable section

namespace Cert.GcnSpec

open Idealize.ShloMosaic Idealize.ShloMosaic.ValueIdx

/-- (∑ₖ x[p,k] · w[k,q]) · d[p,0]. -/
def projScale (x : (⟨2, ![100000, 128]⟩ : Shape).Idx → EReal) (w : (⟨2, ![128, 128]⟩ : Shape).Idx → EReal)
    (d : (⟨2, ![100000, 1]⟩ : Shape).Idx → EReal) (p : Fin 100000) (q : Fin 128) : EReal :=
  (∑ k : Fin 128, x (ix2 p k) * w (ix2 k q)) * d (ix2 p (0 : Fin 1))

/-- (∑ₖ max(a[p,k] · d[p,0] + b[0,k], 0) · w[k,0]) · d[p,0]. -/
def finishProj (a : (⟨2, ![100000, 128]⟩ : Shape).Idx → EReal) (d : (⟨2, ![100000, 1]⟩ : Shape).Idx → EReal)
    (b : (⟨2, ![1, 128]⟩ : Shape).Idx → EReal) (w : (⟨2, ![128, 1]⟩ : Shape).Idx → EReal) (p : Fin 100000) : EReal :=
  (∑ k : Fin 128, max (a (ix2 p k) * d (ix2 p (0 : Fin 1)) + b (ix2 (0 : Fin 1) k)) 0 * w (ix2 k (0 : Fin 1)))
    * d (ix2 p (0 : Fin 1))

/-- A finite sum times a nonnegative extended real other than +∞ is the sum of the products, whatever the terms are. -/
theorem sum_mul_of_nonneg_ne_top {ι : Type} (S : Finset ι) (f : ι → EReal) {r : EReal} (h0 : 0 ≤ r) (ht : r ≠ ⊤) :
    (∑ j ∈ S, f j) * r = ∑ j ∈ S, f j * r := by
  classical
  induction S using Finset.induction_on with
  | empty => simp
  | insert a S ha ih =>
    rw [Finset.sum_insert ha, Finset.sum_insert ha, ← ih, EReal.right_distrib_of_nonneg_of_ne_top h0 ht]

/-- The normalising factor of a degree `t`: the inverse square root where the degree is positive, zero elsewhere. -/
def dinvOf (t : EReal) : EReal := if 0 < t then Ideal.rsqrt t else 0

end Cert.GcnSpec

end
-- ==== Proof.KRegion0.lean ====
/-
  The first region's output array, index by index, on the extended reals.

  The region walks a grid of 20 points. At point `t` it finds rows `5000 t … 5000 t + 4999` of the array `x`
  ([100000, 128]), the whole array `w` ([128, 128]) and the same rows of the one-column array `d` ([100000, 1]); it
  multiplies the block of `x` by `w` into a zero accumulator, scales row `r` of the product by the column's entry of
  row `r`, and writes the result back as rows `5000 t … 5000 t + 4999` of the output ([100000, 128]). On the extended
  reals the two roundings to the narrower format are the identity.

  * `broadcastTo_a1_ab_apply`: a column broadcast along its unit axis reads, at `(p, c)`, the column's entry of row `p`.
  * `matmul_zero_apply`: the matrix product into a zero accumulator at `(r, q)` is `∑ₖ x[r,k] · w[k,q]`.
  * `k0_pay1_apply`: the body's result at `(r, q)` of a block is `(∑ₖ x₀[r,k] · x₁[k,q]) · x₂[r,0]` of the three blocks.
  * `idx_facts`, `iblk_0_apply`, `iblk_1_apply`, `iblk_2_apply`: which rows of its array each block is.
  * `flushed_eq`: what point `t` writes back is block `t` of the one function `G`, `G (p, q) = projScale x w d p q`.
  * `mem_blk`, `covered`: the blocks written back tile the output: row `p` is in the block of point `p / 5000`.
  * `final`, `region0_value`: so after the region the output holds `(∑ₖ x[p,k] · w[k,q]) · d[p,0]` at every `(p, q)`.
-/
import proofs.«177966_j7997229105851_2_alg».proof.Proof.Gen.KernelIdeal.Frame
import proofs.«177966_j7997229105851_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KRegion0

open Cert.KernelIdeal Cert.KernelIdeal.Gen Idealize.ShloMosaic Idealize.ShloMosaic.TcCoe Idealize.SL.Sem
open Idealize.ShloMosaic.ValueIdx
open Idealize.ShloMosaic.Pipeline (Dat)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product at an index -/

/-- The left operand's row is the result's row … -/
theorem lhs_row (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … its column the contraction coordinate; -/
theorem lhs_col (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u
/-- the right operand's row is the contraction coordinate … -/
theorem rhs_row (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u
/-- … its column the result's column. -/
theorem rhs_col (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product into a zero accumulator, at `(r, q)`: row `r` of the left operand against column `q` of the
    right one. -/
theorem matmul_zero_apply (x : FVec Ideal S5000x128 .bf16) (w : FVec Ideal S128x128 .bf16) (r : Fin 5000) (q : Fin 128) :
    matmul dot_S5000x128_S128x128_S5000x128_1_0_0_1_n_n none x w (constant S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q)
      ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's result at an index of its block -/

/-- The body's result at `(r, q)` of a block: row `r` of the first block against column `q` of the second, times the
    third block's entry of row `r`. -/
theorem k0_pay1_apply (x0 : Vec Ideal S5000x128 .f32) (x1 : Vec Ideal S128x128 .f32) (x2 : Vec Ideal S5000x1 .f32)
    (r : Fin 5000) (q : Fin 128) :
    k0_pay1 (F := Ideal) x0 x1 x2 (ix2 r q) = (∑ k : Fin 128, x0 (ix2 r k) * x1 (ix2 k q)) * x2 (ix2 r (0 : Fin 1)) := by
  refine (rfl : k0_pay1 (F := Ideal) x0 x1 x2 (ix2 r q)
      = mulf (F := Ideal)
          (matmul dot_S5000x128_S128x128_S5000x128_1_0_0_1_n_n none (truncf .bf16 x0 bitsLt_bf16_f32)
            (truncf .bf16 x1 bitsLt_bf16_f32) (constant S5000x128 .f32 0x00000000#32))
          (broadcastTo S5000x128 (shapeCast S5000x1 x2 shapeCasts_S5000x1_S5000x1) broadcasts_S5000x1_S5000x128)
          (ix2 r q)).trans ?_
  refine (mulf_apply _ _ _).trans ?_
  refine congrArg₂ (· * ·) (matmul_zero_apply _ _ r q) ?_
  refine (broadcastTo_a1_ab_apply _ broadcasts_S5000x1_S5000x128 r q).trans ?_
  rw [shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: at point `t` the row blocks (windows 0, 2 and 3) are block `t` of their arrays,
    the second operand (window 1) is its one whole block, and every block sits at column block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the output array ends holding, index by index: row `p` of the first array against column `q` of the second,
    times the third array's entry of row `p`. -/
abbrev G (c : Dev nD) : S100000x128.Idx → Elt Ideal .bf16 := fun i =>
  Cert.GcnSpec.projScale (V c (Pipeline.arrRef spec0 0)) (V c (Pipeline.arrRef spec0 1)) (V c (Pipeline.arrRef spec0 2)) (i 0) (i 1)

/-- The first window's block at point `t` is rows `5000 t … 5000 t + 4999` of its array. -/
theorem iblk_0_apply (c : Dev nD) (t : Fin cfg0.N) (r : Fin 5000) (k : Fin 128) (i : S100000x128.Idx)
    (h0 : (i 0).val = 5000 * t.val + r.val) (h1 : (i 1).val = k.val) :
    (iblk0 V c 0 t : Vec Ideal S5000x128 .f32) (ix2 r k) = (V c (Pipeline.arrRef spec0 0) : S100000x128.Idx → Elt Ideal .f32) i := by
  obtain ⟨e0, e1, -⟩ := idx_facts t
  show (V c (Pipeline.arrRef spec0 0) : S100000x128.Idx → Elt Ideal .f32) (((cfg0.win 0).blk t).view.emb (ix2 r k)) = _
  refine congrArg _ (funext fun a => Fin.ext ?_)
  match a with
  | ⟨0, _⟩ => show win0_0.index t (0 : Fin 2) * 5000 + 1 * r.val = (i 0).val; omega
  | ⟨1, _⟩ => show win0_0.index t (1 : Fin 2) * 128 + 1 * k.val = (i 1).val; omega

/-- The second window's block at every point is its whole array. -/
theorem iblk_1_apply (c : Dev nD) (t : Fin cfg0.N) (k : Fin 128) (q : Fin 128) :
    (iblk0 V c 1 t : Vec Ideal S128x128 .f32) (ix2 k q) = (V c (Pipeline.arrRef spec0 1) : S128x128.Idx → Elt Ideal .f32) (ix2 k q) := by
  obtain ⟨-, -, e0, e1, -⟩ := idx_facts t
  show (V c (Pipeline.arrRef spec0 1) : S128x128.Idx → Elt Ideal .f32) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The third window's block at point `t` is rows `5000 t … 5000 t + 4999` of its one-column array. -/
theorem iblk_2_apply (c : Dev nD) (t : Fin cfg0.N) (r : Fin 5000) (i : S100000x1.Idx)
    (h0 : (i 0).val = 5000 * t.val + r.val) :
    (iblk0 V c 2 t : Vec Ideal S5000x1 .f32) (ix2 r (0 : Fin 1)) = (V c (Pipeline.arrRef spec0 2) : S100000x1.Idx → Elt Ideal .f32) i := by
  obtain ⟨-, -, -, -, e0, e1, -⟩ := idx_facts t
  show (V c (Pipeline.arrRef spec0 2) : S100000x1.Idx → Elt Ideal .f32) (((cfg0.win 2).blk t).view.emb (ix2 r (0 : Fin 1))) = _
  refine congrArg _ (funext fun a => Fin.ext ?_)
  match a with
  | ⟨0, _⟩ => show win0_2.index t (0 : Fin 2) * 5000 + 1 * r.val = (i 0).val; omega
  | ⟨1, _⟩ => show win0_2.index t (1 : Fin 2) * 1 + 1 * (0 : Fin 1).val = (i 1).val; have := (i 1).isLt; have h : (i 1).val < 1 := this; simp only [Fin.val_zero]; omega

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  funext j
  obtain ⟨r, q, rfl⟩ : ∃ (r : Fin 5000) (q : Fin 128), j = ix2 r q := ⟨j 0, j 1, eq_ix2 j⟩
  have hrow : ((((cfg0.win 3).blk t).view.emb (ix2 r q) : S100000x128.Idx) 0).val = 5000 * t.val + r.val := by
    show win0_3.index t (0 : Fin 2) * 5000 + 1 * r.val = _; omega
  have hcol : ((((cfg0.win 3).blk t).view.emb (ix2 r q) : S100000x128.Idx) 1).val = q.val := by
    show win0_3.index t (1 : Fin 2) * 128 + 1 * q.val = _; omega
  show k0_pay1 (F := Ideal) (iblk0 V c 0 t) (iblk0 V c 1 t) (iblk0 V c 2 t) (ix2 r q)
      = Cert.GcnSpec.projScale (V c (Pipeline.arrRef spec0 0)) (V c (Pipeline.arrRef spec0 1)) (V c (Pipeline.arrRef spec0 2))
          ((((cfg0.win 3).blk t).view.emb (ix2 r q) : S100000x128.Idx) 0) ((((cfg0.win 3).blk t).view.emb (ix2 r q) : S100000x128.Idx) 1)
  refine (k0_pay1_apply _ _ _ r q).trans ?_
  unfold Cert.GcnSpec.projScale
  refine congrArg₂ (· * ·) (Finset.sum_congr rfl fun k _ => congrArg₂ (· * ·) ?_ ?_) ?_
  · exact iblk_0_apply V c t r k _ hrow rfl
  · refine (iblk_1_apply V c t k q).trans (congrArg _ (funext fun a => Fin.ext ?_))
    match a with
    | ⟨0, _⟩ => rfl
    | ⟨1, _⟩ => exact hcol.symm
  · exact iblk_2_apply V c t r _ hrow

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_call0_v16).slice (win0_3.rect t)).set ↔ _
  rw [View.set_slice_whole, Rect.mem_set_unit]
  exact Iff.rfl

/-- Every index of the output array is in some point's block: row `p` is in the block of point `p / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region, as one function of the arrays the region finds. -/
theorem final (c : Dev nD) : (dat0 (F := Ideal) V c).arrAt 3 cfg0.N = G V c :=
  (dat0 (F := Ideal) V c).arrAt_eq_of_cover 3 (G V c) (fun t _ => flushed_eq V c t) covered

/-- THE REGION'S VALUE: after the region the output array holds, at `(p, q)`, row `p` of the first array against
    column `q` of the second, times the third array's entry of row `p`. -/
theorem region0_value (c : Dev nD) (p : Fin 100000) (q : Fin 128) :
    (Gen.dat0 (F := Ideal) V c).arrAt 3 cfg0.N (ValueIdx.ix2 p q)
      = Cert.GcnSpec.projScale (V c (Pipeline.arrRef spec0 0)) (V c (Pipeline.arrRef spec0 1)) (V c (Pipeline.arrRef spec0 2)) p q :=
  congrFun (final V c) (ix2 p q)

end Cert.KernelIdeal.KRegion0

end
-- ==== Proof.KRegion1.lean ====
/-
  The second region's output array, index by index, on the extended reals.

  The region walks a grid of 20 points. At point `t` it finds rows `5000 t … 5000 t + 4999` of the aggregated array `a`
  ([100000, 128]) and of the one-column array `d` ([100000, 1]), the whole bias row `b` ([1, 128]) and the whole
  one-column array `w` ([128, 1]); it scales row `r` of the block of `a` by the column's entry of row `r`, adds the bias
  row, takes the positive part, multiplies by `w` into a zero accumulator, scales row `r` by the column's entry again,
  and writes the result back as rows `5000 t … 5000 t + 4999` of the output ([100000, 1]). On the extended reals the two
  roundings to the narrower format are the identity and the zero the maximum is taken with is `0`.

  * `broadcastTo_a1_ab_apply`: a column broadcast along its unit axis reads, at `(p, c)`, the column's entry of row `p`.
  * `matmul_zero_apply`: the matrix product into a zero accumulator at `(r, z)` is `∑ₖ x[r,k] · w[k,z]`.
  * `hidden_apply`: the hidden layer at `(r, k)` of a block is `max (x₀[r,k] · x₁[r,0] + x₂[0,k]) 0`.
  * `k1_pay1_apply`: the body's result at row `r` of a block is `(∑ₖ max (x₀[r,k] · x₁[r,0] + x₂[0,k]) 0 · x₃[k,0]) · x₄[r,0]`.
  * `idx_facts`, `iblk_0_apply` … `iblk_3_apply`: which rows of its array each block is.
  * `flushed_eq`: what point `t` writes back is block `t` of the one function `G`, `G (p, 0) = finishProj a d b w p`.
  * `mem_blk`, `covered`: the blocks written back tile the output: row `p` is in the block of point `p / 5000`.
  * `final`, `region1_value`: so after the region the output holds
    `(∑ₖ max (a[p,k] · d[p,0] + b[0,k]) 0 · w[k,0]) · d[p,0]` at every row `p`.
-/
import proofs.«177966_j7997229105851_2_alg».proof.Proof.Gen.KernelIdeal.Frame
import proofs.«177966_j7997229105851_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KRegion1

open Cert.KernelIdeal Cert.KernelIdeal.Gen Idealize.ShloMosaic Idealize.ShloMosaic.TcCoe Idealize.SL.Sem
open Idealize.ShloMosaic.ValueIdx
open Idealize.ShloMosaic.Pipeline (Dat)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product at an index -/

/-- The left operand's row is the result's row … -/
theorem lhs_row (i : S5000x1.Idx) (u : dot_S5000x128_S128x1_S5000x1_1_0_0_1_n_n.contr.Idx) :
    (dot_S5000x128_S128x1_S5000x1_1_0_0_1_n_n.lhsIdx i u 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl
/-- … its column the contraction coordinate; -/
theorem lhs_col (i : S5000x1.Idx) (u : dot_S5000x128_S128x1_S5000x1_1_0_0_1_n_n.contr.Idx) :
    (dot_S5000x128_S128x1_S5000x1_1_0_0_1_n_n.lhsIdx i u 1).val = (u ⟨0, by decide⟩).val :=
  dot_S5000x128_S128x1_S5000x1_1_0_0_1_n_n.lhsIdx_val_of_single rfl i u
/-- the right operand's row is the contraction coordinate … -/
theorem rhs_row (i : S5000x1.Idx) (u : dot_S5000x128_S128x1_S5000x1_1_0_0_1_n_n.contr.Idx) :
    (dot_S5000x128_S128x1_S5000x1_1_0_0_1_n_n.rhsIdx i u 0).val = (u ⟨0, by decide⟩).val :=
  dot_S5000x128_S128x1_S5000x1_1_0_0_1_n_n.rhsIdx_val_of_single rfl i u
/-- … its column the result's column. -/
theorem rhs_col (i : S5000x1.Idx) (u : dot_S5000x128_S128x1_S5000x1_1_0_0_1_n_n.contr.Idx) :
    (dot_S5000x128_S128x1_S5000x1_1_0_0_1_n_n.rhsIdx i u 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- The matrix product into a zero accumulator, at `(r, z)`: row `r` of the left operand against the right operand's
    column `z`. -/
theorem matmul_zero_apply (x : FVec Ideal S5000x128 .bf16) (w : FVec Ideal S128x1 .bf16) (r : Fin 5000) (z : Fin 1) :
    matmul dot_S5000x128_S128x1_S5000x1_1_0_0_1_n_n none x w (constant S5000x1 .f32 0x00000000#32) (ix2 r z)
      = ∑ k : Fin 128, x (ix2 r k) * w (ix2 k z) := by
  refine (Ideal.matmul_constant_zero_apply dot_S5000x128_S128x1_S5000x1_1_0_0_1_n_n none x w (ix2 r z)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r z)
      ((contrEquiv1 dot_S5000x128_S128x1_S5000x1_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x1_S5000x1_1_0_0_1_n_n.rhsIdx (ix2 r z)
      ((contrEquiv1 dot_S5000x128_S128x1_S5000x1_1_0_0_1_n_n 128 rfl rfl).symm k) = ix2 k z := funext fun a => Fin.ext (by
    match a with
    | ⟨0, _⟩ => exact (rhs_row _ _).trans hk
    | ⟨1, _⟩ => exact rhs_col _ _)
  rw [el, er]

/-! ## The body's result at an index of its block -/

/-- The hidden layer at `(r, k)` of a block: the aggregated entry scaled by its row's factor, the bias of column `k`
    added, the positive part taken. -/
theorem hidden_apply (x0 : Vec Ideal S5000x128 .f32) (x1 : Vec Ideal S5000x1 .f32) (x2 : Vec Ideal S1x128 .f32)
    (r : Fin 5000) (k : Fin 128) :
    maximumf (F := Ideal)
        (addf (mulf (shapeCast S5000x128 x0 shapeCasts_S5000x128_S5000x128)
            (broadcastTo S5000x128 (shapeCast S5000x1 x1 shapeCasts_S5000x1_S5000x1) broadcasts_S5000x1_S5000x128))
          (broadcastTo S5000x128 (shapeCast S1x128 x2 shapeCasts_S1x128_S1x128) broadcasts_S1x128_S5000x128))
        (broadcast S5000x128 (Scalar.ofBits .f32 0x00000000#32)) (ix2 r k)
      = max (x0 (ix2 r k) * x1 (ix2 r (0 : Fin 1)) + x2 (ix2 (0 : Fin 1) k)) 0 := by
  refine (maximumf_apply _ _ _).trans (congrArg₂ max ?_ Ideal.ofBits_zero_f32)
  refine (addf_apply _ _ _).trans (congrArg₂ (· + ·) ((mulf_apply _ _ _).trans (congrArg₂ (· * ·) ?_ ?_)) ?_)
  · rw [shapeCast_self]
  · refine (broadcastTo_a1_ab_apply _ broadcasts_S5000x1_S5000x128 r k).trans ?_
    rw [shapeCast_self]
  · refine (broadcastTo_1b_ab_apply _ broadcasts_S1x128_S5000x128 r k).trans ?_
    rw [shapeCast_self]

/-- The body's result at row `r` of a block: the hidden row `r` against the one output column, times the row's factor. -/
theorem k1_pay1_apply (x0 : Vec Ideal S5000x128 .f32) (x1 : Vec Ideal S5000x1 .f32) (x2 : Vec Ideal S1x128 .f32)
    (x3 : Vec Ideal S128x1 .f32) (x4 : Vec Ideal S5000x1 .f32) (r : Fin 5000) :
    k1_pay1 (F := Ideal) x0 x1 x2 x3 x4 (ix2 r (0 : Fin 1))
      = (∑ k : Fin 128, max (x0 (ix2 r k) * x1 (ix2 r (0 : Fin 1)) + x2 (ix2 (0 : Fin 1) k)) 0 * x3 (ix2 k (0 : Fin 1)))
          * x4 (ix2 r (0 : Fin 1)) := by
  refine (rfl : k1_pay1 (F := Ideal) x0 x1 x2 x3 x4 (ix2 r (0 : Fin 1))
      = mulf (F := Ideal)
          (matmul dot_S5000x128_S128x1_S5000x1_1_0_0_1_n_n none
            (truncf .bf16 (maximumf
              (addf (mulf (shapeCast S5000x128 x0 shapeCasts_S5000x128_S5000x128)
                  (broadcastTo S5000x128 (shapeCast S5000x1 x1 shapeCasts_S5000x1_S5000x1) broadcasts_S5000x1_S5000x128))
                (broadcastTo S5000x128 (shapeCast S1x128 x2 shapeCasts_S1x128_S1x128) broadcasts_S1x128_S5000x128))
              (broadcast S5000x128 (Scalar.ofBits .f32 0x00000000#32))) bitsLt_bf16_f32)
            (truncf .bf16 x3 bitsLt_bf16_f32) (constant S5000x1 .f32 0x00000000#32))
          (shapeCast S5000x1 x4 shapeCasts_S5000x1_S5000x1) (ix2 r (0 : Fin 1))).trans ?_
  refine (mulf_apply _ _ _).trans (congrArg₂ (· * ·) ?_ ?_)
  · refine (matmul_zero_apply _ _ r 0).trans (Finset.sum_congr rfl fun k _ => congrArg₂ (· * ·) ?_ rfl)
    exact hidden_apply x0 x1 x2 r k
  · rw [shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: at point `t` the row blocks (windows 0, 1 and 4) are block `t` of their arrays,
    the bias row and the output column's weights (windows 2 and 3) are their one whole block, and every block sits at
    column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the output array ends holding, index by index: row `p` of the first array scaled by the row's factor, the bias
    row added, the positive part taken, against the one output column, scaled by the row's factor again. -/
abbrev G (c : Dev nD) : S100000x1.Idx → Elt Ideal .f32 := fun i =>
  Cert.GcnSpec.finishProj (V c (Pipeline.arrRef spec1 0)) (V c (Pipeline.arrRef spec1 1)) (V c (Pipeline.arrRef spec1 2))
    (V c (Pipeline.arrRef spec1 3)) (i 0)

/-- The first window's block at point `t` is rows `5000 t … 5000 t + 4999` of its array. -/
theorem iblk_0_apply (c : Dev nD) (t : Fin cfg1.N) (r : Fin 5000) (k : Fin 128) (i : S100000x128.Idx)
    (h0 : (i 0).val = 5000 * t.val + r.val) (h1 : (i 1).val = k.val) :
    (iblk1 V c 0 t : Vec Ideal S5000x128 .f32) (ix2 r k) = (V c (Pipeline.arrRef spec1 0) : S100000x128.Idx → Elt Ideal .f32) i := by
  obtain ⟨e0, e1, -⟩ := idx_facts t
  show (V c (Pipeline.arrRef spec1 0) : S100000x128.Idx → Elt Ideal .f32) (((cfg1.win 0).blk t).view.emb (ix2 r k)) = _
  refine congrArg _ (funext fun a => Fin.ext ?_)
  match a with
  | ⟨0, _⟩ => show win1_0.index t (0 : Fin 2) * 5000 + 1 * r.val = (i 0).val; omega
  | ⟨1, _⟩ => show win1_0.index t (1 : Fin 2) * 128 + 1 * k.val = (i 1).val; omega

/-- The second window's block at point `t` is rows `5000 t … 5000 t + 4999` of its one-column array. -/
theorem iblk_1_apply (c : Dev nD) (t : Fin cfg1.N) (r : Fin 5000) (i : S100000x1.Idx)
    (h0 : (i 0).val = 5000 * t.val + r.val) :
    (iblk1 V c 1 t : Vec Ideal S5000x1 .f32) (ix2 r (0 : Fin 1)) = (V c (Pipeline.arrRef spec1 1) : S100000x1.Idx → Elt Ideal .f32) i := by
  obtain ⟨-, -, e0, e1, -⟩ := idx_facts t
  show (V c (Pipeline.arrRef spec1 1) : S100000x1.Idx → Elt Ideal .f32) (((cfg1.win 1).blk t).view.emb (ix2 r (0 : Fin 1))) = _
  refine congrArg _ (funext fun a => Fin.ext ?_)
  match a with
  | ⟨0, _⟩ => show win1_1.index t (0 : Fin 2) * 5000 + 1 * r.val = (i 0).val; omega
  | ⟨1, _⟩ =>
    show win1_1.index t (1 : Fin 2) * 1 + 1 * (0 : Fin 1).val = (i 1).val
    have h : (i 1).val < 1 := (i 1).isLt
    simp only [Fin.val_zero]; omega

/-- The third window's block at every point is its whole one-row array. -/
theorem iblk_2_apply (c : Dev nD) (t : Fin cfg1.N) (k : Fin 128) :
    (iblk1 V c 2 t : Vec Ideal S1x128 .f32) (ix2 (0 : Fin 1) k)
      = (V c (Pipeline.arrRef spec1 2) : S1x128.Idx → Elt Ideal .f32) (ix2 (0 : Fin 1) k) := by
  obtain ⟨-, -, -, -, e0, e1, -⟩ := idx_facts t
  show (V c (Pipeline.arrRef spec1 2) : S1x128.Idx → Elt Ideal .f32) (((cfg1.win 2).blk t).view.emb (ix2 (0 : Fin 1) k)) = _
  refine congrArg _ (funext fun a => Fin.ext ?_)
  match a with
  | ⟨0, _⟩ => show win1_2.index t (0 : Fin 2) * 1 + 1 * (0 : Fin 1).val = (0 : Fin 1).val; simp only [Fin.val_zero]; omega
  | ⟨1, _⟩ => show win1_2.index t (1 : Fin 2) * 128 + 1 * k.val = k.val; omega

/-- The fourth window's block at every point is its whole one-column array. -/
theorem iblk_3_apply (c : Dev nD) (t : Fin cfg1.N) (k : Fin 128) :
    (iblk1 V c 3 t : Vec Ideal S128x1 .f32) (ix2 k (0 : Fin 1))
      = (V c (Pipeline.arrRef spec1 3) : S128x1.Idx → Elt Ideal .f32) (ix2 k (0 : Fin 1)) := by
  obtain ⟨-, -, -, -, -, -, e0, e1, -⟩ := idx_facts t
  show (V c (Pipeline.arrRef spec1 3) : S128x1.Idx → Elt Ideal .f32) (((cfg1.win 3).blk t).view.emb (ix2 k (0 : Fin 1))) = _
  refine congrArg _ (funext fun a => Fin.ext ?_)
  match a with
  | ⟨0, _⟩ => show win1_3.index t (0 : Fin 2) * 128 + 1 * k.val = k.val; omega
  | ⟨1, _⟩ => show win1_3.index t (1 : Fin 2) * 1 + 1 * (0 : Fin 1).val = (0 : Fin 1).val; simp only [Fin.val_zero]; omega

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x1) hz]
  obtain ⟨-, -, -, -, -, -, -, -, e0, e1⟩ := idx_facts t
  funext j
  obtain ⟨r, z, rfl⟩ : ∃ (r : Fin 5000) (z : Fin 1), j = ix2 r z := ⟨j 0, j 1, eq_ix2 j⟩
  obtain rfl : z = 0 := Fin.eq_zero z
  have hrow : ((((cfg1.win 4).blk t).view.emb (ix2 r (0 : Fin 1)) : S100000x1.Idx) 0).val = 5000 * t.val + r.val := by
    show win1_4.index t (0 : Fin 2) * 5000 + 1 * r.val = _; omega
  show k1_pay1 (F := Ideal) (iblk1 V c 0 t) (iblk1 V c 1 t) (iblk1 V c 2 t) (iblk1 V c 3 t) (iblk1 V c 1 t) (ix2 r (0 : Fin 1))
      = Cert.GcnSpec.finishProj (V c (Pipeline.arrRef spec1 0)) (V c (Pipeline.arrRef spec1 1)) (V c (Pipeline.arrRef spec1 2))
          (V c (Pipeline.arrRef spec1 3)) ((((cfg1.win 4).blk t).view.emb (ix2 r (0 : Fin 1)) : S100000x1.Idx) 0)
  refine (k1_pay1_apply _ _ _ _ _ r).trans ?_
  unfold Cert.GcnSpec.finishProj
  refine congrArg₂ (· * ·) (Finset.sum_congr rfl fun k _ => congrArg₂ (· * ·)
    (congrArg₂ max (congrArg₂ (· + ·) (congrArg₂ (· * ·) ?_ ?_) ?_) rfl) ?_) ?_
  · exact iblk_0_apply V c t r k _ hrow rfl
  · exact iblk_1_apply V c t r _ hrow
  · exact iblk_2_apply V c t k
  · exact iblk_3_apply V c t k
  · exact iblk_1_apply V c t r _ hrow

/-- An index of the output array is in point `t`'s block iff each coordinate is in the block's range on its axis. -/
theorem mem_blk (t : Fin cfg1.N) (i : S100000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_call0_v29).slice (win1_4.rect t)).set ↔ _
  rw [View.set_slice_whole, Rect.mem_set_unit]
  exact Iff.rfl

/-- Every index of the output array is in some point's block: row `p` is in the block of point `p / 5000`. -/
theorem covered (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 1 ≤ (i 1).val ∧ (i 1).val < win1_4.index t (1 : Fin 2) * 1 + 1
    omega

/-- The output array after the region, as one function of the arrays the region finds. -/
theorem final (c : Dev nD) : (dat1 (F := Ideal) V c).arrAt 4 cfg1.N = G V c :=
  (dat1 (F := Ideal) V c).arrAt_eq_of_cover 4 (G V c) (fun t _ => flushed_eq V c t) covered

/-- THE REGION'S VALUE: after the region the output column holds, at row `p`, the hidden row `p` (the first array's row
    scaled by the row's factor, the bias row added, the positive part taken) against the one output column, scaled by the
    row's factor again. -/
theorem region1_value (c : Dev nD) (p : Fin 100000) :
    (Gen.dat1 (F := Ideal) V c).arrAt 4 cfg1.N (ValueIdx.ix2 p (0 : Fin 1))
      = Cert.GcnSpec.finishProj (V c (Pipeline.arrRef spec1 0)) (V c (Pipeline.arrRef spec1 1)) (V c (Pipeline.arrRef spec1 2))
          (V c (Pipeline.arrRef spec1 3)) p :=
  congrFun (final V c) (ix2 p (0 : Fin 1))

end Cert.KernelIdeal.KRegion1

end
-- ==== Proof.KValue.lean ====
/-
  The kernel program's two dense regions, read from the launch memory (at the ideal instance).

  `R0` is the array the first region leaves: at (p, q) it holds (∑ₖ x[p,k]·W1[k,q]) · dinv[p] (`R0_apply`: the region's
  value at the arrays it finds, and those arrays are the arguments x, W1 and the column of normalising factors).
  `R1` is the array the second region leaves: at (p, 0) it holds the projected, rectified, re-scaled row p of the
  aggregate `agg1 R0` (`R1_apply`: the region finds the aggregate, the factors' column, the bias row and W2).
-/
import proofs.«177966_j7997229105851_2_alg».proof.Proof.KHost
import proofs.«177966_j7997229105851_2_alg».proof.Proof.KRegion0
import proofs.«177966_j7997229105851_2_alg».proof.Proof.KRegion1

noncomputable section

namespace Cert.KernelIdeal.KValue

open Idealize.ShloMosaic Idealize.ShloMosaic.TcCoe Idealize.ShloMosaic.ValueIdx Idealize.SL.Sem
open Cert.KernelIdeal Cert.KernelIdeal.Gen Cert.GcnSpec

variable (m : (ℓ : Loc nD τ sig) → Buf (Elt Ideal) ℓ) (ρ : Dev nD → PrngReg) (c : Dev nD)

/-- The array the first region leaves. -/
abbrev R0 := (Gen.dat0 (F := Ideal) (Gen.V1 m ρ) c).arrAt 3 cfg0.N
/-- The array the second region leaves. -/
abbrev R1 := (Gen.dat1 (F := Ideal) (Gen.V3 m ρ) c).arrAt 4 cfg1.N

theorem R0_apply (p : Fin 100000) (q : Fin 128) :
    R0 m ρ c (ix2 p q) = projScale (m ((c : Thread nD τ).loc main_arg0)) (m ((c : Thread nD τ).loc main_arg2))
      (KTerms.dinv2 (F := Ideal) (m ((c : Thread nD τ).loc main_arg1))) p q := by
  refine (KRegion0.region0_value (Gen.V1 m ρ) c p q).trans ?_
  rw [KHost.V1_x, KHost.V1_w, KHost.V1_d]

theorem R1_apply (p : Fin 100000) :
    R1 m ρ c (ix2 p (0 : Fin 1)) = finishProj (KTerms.agg1 (F := Ideal) (m ((c : Thread nD τ).loc main_arg1)) (R0 m ρ c))
      (KTerms.dinv2 (F := Ideal) (m ((c : Thread nD τ).loc main_arg1))) (KTerms.b1row (F := Ideal) (m ((c : Thread nD τ).loc main_arg3)))
      (m ((c : Thread nD τ).loc main_arg4)) p := by
  refine (KRegion1.region1_value (Gen.V3 m ρ) c p).trans ?_
  rw [KHost.V3_a, KHost.V3_d, KHost.V3_b, KHost.V3_w]

end Cert.KernelIdeal.KValue

end
-- ==== Proof.SpecLaws.lean ====
/-
  Two facts about the normalising factor and the law that moves it across a scatter-sum.

  * For every extended real t the factor `dinvOf t` (the inverse square root of t where t is positive, zero elsewhere) is
    nonnegative and is not +∞: the inverse square root of a positive real is a positive real and that of +∞ is 0.
  * `sum_scaled`: over the updates j that land at one index i, if the third factor t j is the SAME number r at every such j
    (it is the destination's factor, and every update landing at i has destination i), and r is nonnegative and not +∞,
    then  ∑ f j · (s j · t j) = (∑ f j · s j) · r.
-/
import proofs.«177966_j7997229105851_2_alg».proof.Proof.Spec

noncomputable section

namespace Cert.GcnSpec

open Idealize.ShloMosaic

theorem dinvOf_nonneg (t : EReal) : 0 ≤ dinvOf t := by
  unfold dinvOf
  split_ifs with h
  · induction t using EReal.rec with
    | bot => exact absurd h (by simp)
    | top => simp
    | coe r =>
      have hr : 0 < r := by exact_mod_cast h
      rw [Ideal.rsqrt_coe, if_neg (not_lt.mpr hr.le), if_neg hr.ne']
      exact_mod_cast inv_nonneg.mpr (Real.sqrt_nonneg r)
  · exact le_rfl

theorem dinvOf_ne_top (t : EReal) : dinvOf t ≠ ⊤ := by
  unfold dinvOf
  split_ifs with h
  · induction t using EReal.rec with
    | bot => exact absurd h (by simp)
    | top => simp
    | coe r =>
      have hr : 0 < r := by exact_mod_cast h
      rw [Ideal.rsqrt_coe, if_neg (not_lt.mpr hr.le), if_neg hr.ne']
      exact EReal.coe_ne_top _
  · exact EReal.zero_ne_top

theorem sum_scaled {J I : Type} [Fintype J] (land : J → Option I) (i : I)
    [DecidablePred fun j => land j = some i] (f s t : J → EReal) (r : EReal)
    (h0 : 0 ≤ r) (ht : r ≠ ⊤) (hland : ∀ j, land j = some i → t j = r) :
    ∑ j ∈ Finset.univ.filter (fun j => land j = some i), f j * (s j * t j)
      = (∑ j ∈ Finset.univ.filter (fun j => land j = some i), f j * s j) * r := by
  rw [sum_mul_of_nonneg_ne_top _ _ h0 ht]
  refine Finset.sum_congr rfl fun j hj => ?_
  rw [hland j (Finset.mem_filter.mp hj).2, mul_assoc]

end Cert.GcnSpec

end
-- ==== Proof.LibGatherScatterRows.lean ====
/-
  Row gathers and row scatters read at an index, for any extents (N rows, E start indices, C columns) and any element type.

  A row gather `x[idx]` of an operand [N, C] (or [N]) at start indices [E, 1] reads, at result index (e, q), the operand
  at row `clampRow N idx[e,0]` — the start index read as a signed integer and clamped into [0, N − 1] — and column q.
  A row scatter of updates [E, C] into an operand [N, C] at scatter indices [E, 1] sends update (e, q) to row idx[e,0]
  (read signed, NOT clamped) and column q, and drops it when that row is outside the operand: so if update (e, q) lands at
  index i, then idx[e,0] as an integer IS i's row, and q is i's column.
-/
import Idealize.ShloMosaic.PureOps.ShapeOps
import Idealize.ShloMosaic.Lib.ValueIdx

noncomputable section

namespace Cert.LibGatherScatterRows

open Idealize.ShloMosaic Idealize.ShloMosaic.ValueIdx

/-- The row a start index word selects among N rows: read signed, clamped into [0, N − 1]. -/
def clampRow (N : Nat) (hN : 0 < N) {w : Nat} (v : BitVec w) : Fin N := ⟨min v.toInt.toNat (N - 1), by omega⟩

theorem clampRow_of_toInt {N : Nat} (hN : 0 < N) {w : Nat} (v : BitVec w) (r : Fin N) (h : v.toInt = (r.val : ℤ)) :
    clampRow N hN v = r := by
  apply Fin.ext
  show min v.toInt.toNat (N - 1) = r.val
  have := r.isLt
  rw [h]; simp only [Int.toNat_natCast]; omega

section Gather
variable {α : Type}

/-- The dimension numbers of `x[idx]` along axis 0 of a rank-2 operand: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at (e, q): the operand at the clamped row idx[e,0] and column q. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e (0 : Fin 1)))) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    unfold GatherDims.start
    rw [dif_neg (show (1 : Fin 2) ∉ (rowGatherDims N E C wf).startIndexMap from
      (by decide : (1 : Fin 2) ∉ ([0] : List (Fin 2))))]
    simp only [Nat.add_zero, Nat.zero_add]
    rfl

/-- The dimension numbers of `x[idx]` of a flat operand: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather at e: the operand at the clamped index idx[e,0]. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of a row scatter: operand [N, C], scatter indices [E, 1], updates [E, C]. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update (e, q) of a row scatter lands at index i, the scatter index idx[e,0], read signed, is i's row. -/
theorem rowScatter_lands {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatterDims N E C wf).resultIdx? (ix2 e q) idx = some i) :
    (idx (ix2 e (0 : Fin 1))).toInt = ((i 0).val : ℤ) := by
  unfold ScatterDims.resultIdx? at h
  split at h
  · rename_i hin
    have hv : ((rowScatterDims N E C wf).start (ix2 e q) idx 0
        + ((rowScatterDims N E C wf).window (ix2 e q) 0 : ℤ)).toNat = (i 0).val :=
      congrArg Fin.val (congrFun (Option.some.inj h) 0)
    have hs : (rowScatterDims N E C wf).start (ix2 e q) idx 0 = (idx (ix2 e (0 : Fin 1))).toInt := by
      unfold ScatterDims.start
      rw [dif_pos (show (0 : Fin 2) ∈ (rowScatterDims N E C wf).scatterDimsToOperandDims from
        List.mem_singleton.mpr rfl)]
      have hsi : (rowScatterDims N E C wf).siIdx (ix2 e q)
          ⟨List.idxOf (0 : Fin 2) (rowScatterDims N E C wf).scatterDimsToOperandDims,
            List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowScatterDims N E C wf).window (ix2 e q) 0 = 0 := by
      unfold ScatterDims.window
      rw [dif_neg]
      simp [ScatterDims.sKept, Shape.kept]
    have h0 := hin 0
    rw [hs, hw] at h0 hv
    omega
  · exact absurd h (by simp)

end Scatter

end Cert.LibGatherScatterRows

end
-- ==== Proof.KFacts.lean ====
/-
  The host side of the kernel's program read at an index (at the ideal instance where floats are involved).

  * A vector broadcast to a column reads, at (e, 0), the vector at e (`dstB_apply`, `srcB_apply`).
  * `dstN`: the destinations with a negative index moved up by the node count; a destination that is nonnegative as a
    signed integer is not moved (`dstN_of_nonneg`).
  * `dv p`: node p's normalising factor; it is `dinvOf` of the node's degree, so nonnegative and not +∞.
  * `rs e`, `rd e`: the rows a gather reads for edge e through the (moved, clamped) source and destination.
  * The gathers of the program at an index (`gatherRows_apply`, `gatherCol_apply`), and: an update (e, q) of either
    scatter that lands at row p has destination row `rd e = p` (`rd_of_land1`, `rd_of_land2`).
-/
import proofs.«177966_j7997229105851_2_alg».proof.Proof.KTerms
import proofs.«177966_j7997229105851_2_alg».proof.Proof.SpecLaws
import proofs.«177966_j7997229105851_2_alg».proof.Proof.LibGatherScatterRows
import Idealize.ShloMosaic.Lib.Pipeline.Value
import Idealize.ShloMosaic.PureOps.Ideal.Laws

noncomputable section

namespace Cert.KernelIdeal.KFacts

open Idealize.ShloMosaic Idealize.ShloMosaic.ValueIdx Cert.KernelIdeal Cert.KernelIdeal.Gen Cert.KernelIdeal.KTerms
open Cert.LibGatherScatterRows Cert.GcnSpec

/-- A vector over the edges broadcast to a column, at (e, 0): the vector at e. -/
theorem col_apply {α : Type} (v : S1700000.Idx → α) (e : Fin 1700000) :
    broadcastInDim S1700000x1 ![0] bcast_S1700000_S1700000x1_0 v (ix2 e (0 : Fin 1)) = v (ix1 e) :=
  broadcastInDim_apply _ bcast_S1700000_S1700000x1_0 v (ix2 e (0 : Fin 1)) (ix1 e) (fun a => match a with
    | ⟨0, _⟩ => by show e.val = if (1700000 : Nat) = 1 then 0 else e.val; rw [if_neg (by decide)])

theorem dstB_apply (ei : IVec S2x1600000 32) (e : Fin 1700000) : dstB ei (ix2 e (0 : Fin 1)) = dstV ei (ix1 e) :=
  col_apply _ e

theorem srcB_apply (ei : IVec S2x1600000 32) (e : Fin 1700000) : srcB ei (ix2 e (0 : Fin 1)) = srcN ei (ix1 e) :=
  col_apply _ e

/-- The destinations with a negative index moved up by the node count (what a gather by destination reads). -/
def dstN (ei : IVec S2x1600000 32) : IVec S1700000 32 :=
  select (cmpi .slt (dstV ei) (broadcastInDim S1700000 ![] bcast_S_S1700000 (constantI S_ 32 0#32))) (addi (dstV ei) (broadcastInDim S1700000 ![] bcast_S_S1700000 (constantI S_ 32 100000#32))) (dstV ei)

def dstNB (ei : IVec S2x1600000 32) : IVec S1700000x1 32 := broadcastInDim S1700000x1 ![0] bcast_S1700000_S1700000x1_0 (dstN ei)

theorem dstNB_apply (ei : IVec S2x1600000 32) (e : Fin 1700000) : dstNB ei (ix2 e (0 : Fin 1)) = dstN ei (ix1 e) :=
  col_apply _ e

theorem slt_zero_of_nonneg (x : BitVec 32) (h : 0 ≤ x.toInt) : IntOp.cmpi .slt x 0#32 = 0#1 := by
  have hs : x.slt 0#32 = false := by
    simp only [BitVec.slt, BitVec.toInt_zero, decide_eq_false_iff_not, not_lt]; exact h
  show BitVec.ofBool (x.slt 0#32) = 0#1
  rw [hs]; rfl

/-- A destination that is nonnegative as a signed integer is not moved. -/
theorem dstN_of_nonneg (ei : IVec S2x1600000 32) (e : Fin 1700000) (h : 0 ≤ (dstV ei (ix1 e)).toInt) :
    dstN ei (ix1 e) = dstV ei (ix1 e) := by
  unfold dstN
  rw [select_apply]
  have hz : broadcastInDim S1700000 ![] bcast_S_S1700000 (constantI S_ 32 0#32) (ix1 e) = 0#32 :=
    broadcastInDim_apply _ bcast_S_S1700000 (constantI S_ 32 0#32) (ix1 e) ix0 (fun a => a.elim0)
  have hc : cmpi .slt (dstV ei) (broadcastInDim S1700000 ![] bcast_S_S1700000 (constantI S_ 32 0#32)) (ix1 e) = 0#1 := by
    show IntOp.cmpi .slt (dstV ei (ix1 e)) (broadcastInDim S1700000 ![] bcast_S_S1700000 (constantI S_ 32 0#32) (ix1 e)) = 0#1
    rw [hz]; exact slt_zero_of_nonneg _ h
  rw [hc, select_zero]

/-- The host's inverse square root reads pointwise. -/
theorem hostRsqrt_apply {s : Shape} (D : FVec Ideal s .f32) (i : s.Idx) : Host.rsqrt D i = Ideal.rsqrt (D i) :=
  Ideal.hostUnary_rsqrt_def (D i)

/-- Node p's normalising factor. -/
def dv (ei : IVec S2x1600000 32) (p : Fin 100000) : EReal := dinvV (F := Ideal) ei (ix1 p)

/-- The zero vector over the nodes reads 0. -/
theorem zeroVec_apply (p : Fin 100000) :
    broadcastInDim S100000 ![] bcast_S_S100000 (constant (F := Ideal) S_ .f32 0x00000000#32) (ix1 p) = 0 := by
  rw [broadcastInDim_apply _ bcast_S_S100000 (constant (F := Ideal) S_ .f32 0x00000000#32) (ix1 p) ix0 (fun a => a.elim0)]
  rw [constant_apply]
  exact Ideal.ofBits_zero_f32

theorem dv_eq (ei : IVec S2x1600000 32) (p : Fin 100000) : dv ei p = dinvOf (degV (F := Ideal) ei (ix1 p)) := by
  unfold dv dinvV dinvOf
  generalize degV (F := Ideal) ei = D
  rw [select_apply, cmpf_apply, zeroVec_apply, hostRsqrt_apply]
  simp only [id]
  rw [zeroVec_apply]
  have hc : FloatOps.cmpf (F := Ideal) .ogt (D (ix1 p)) 0 = BitVec.ofBool (decide (0 < D (ix1 p))) := rfl
  rw [hc]
  by_cases h : 0 < D (ix1 p)
  · rw [if_pos h, decide_eq_true h]; exact select_one _ _
  · rw [if_neg h, decide_eq_false h]; exact select_zero _ _

theorem dv_nonneg (ei : IVec S2x1600000 32) (p : Fin 100000) : 0 ≤ dv ei p := by rw [dv_eq]; exact dinvOf_nonneg _
theorem dv_ne_top (ei : IVec S2x1600000 32) (p : Fin 100000) : dv ei p ≠ ⊤ := by rw [dv_eq]; exact dinvOf_ne_top _

/-- The column form of the factors at (p, 0). -/
theorem dinv2_apply (ei : IVec S2x1600000 32) (p : Fin 100000) : dinv2 (F := Ideal) ei (ix2 p (0 : Fin 1)) = dv ei p := by
  unfold dinv2 dv
  exact shapeCast_apply _ shapeCasts_S100000_S100000x1 (ix2 p (0 : Fin 1)) (ix1 p)
    (by rw [Shape.rowMajor_val_two, Shape.rowMajor_val_one]; show p.val = p.val * 1 + 0; omega)

/-- The row a gather by source reads for edge e. -/
def rs (ei : IVec S2x1600000 32) (e : Fin 1700000) : Fin 100000 := clampRow 100000 (by decide) (srcB ei (ix2 e (0 : Fin 1)))
/-- The row a gather by destination reads for edge e. -/
def rd (ei : IVec S2x1600000 32) (e : Fin 1700000) : Fin 100000 := clampRow 100000 (by decide) (dstNB ei (ix2 e (0 : Fin 1)))

theorem gatherRows_apply {α : Type} (ei : IVec S2x1600000 32) (X : S100000x128.Idx → α) (e : Fin 1700000) (q : Fin 128) :
    Host.gather gather_S100000x128_S1700000x1_S1700000x128_1_0_n_n_0_1_1128 X (srcB ei) (ix2 e q) = X (ix2 (rs ei e) q) :=
  rowGather_apply (by decide) gather_S100000x128_S1700000x1_S1700000x128_1_0_n_n_0_1_1128_wf X (srcB ei) e q

theorem gatherCol_apply {α : Type} (ei : IVec S2x1600000 32) (X : S100000x1.Idx → α) (e : Fin 1700000) :
    Host.gather gather_S100000x1_S1700000x1_S1700000x1_1_0_n_n_0_1_11 X (srcB ei) (ix2 e (0 : Fin 1)) = X (ix2 (rs ei e) (0 : Fin 1)) :=
  rowGather_apply (by decide) gather_S100000x1_S1700000x1_S1700000x1_1_0_n_n_0_1_11_wf X (srcB ei) e 0

theorem rd_of_toInt (ei : IVec S2x1600000 32) (e : Fin 1700000) (p : Fin 100000)
    (h : (dstB ei (ix2 e (0 : Fin 1))).toInt = (p.val : ℤ)) : rd ei e = p := by
  unfold rd
  rw [dstB_apply] at h
  rw [dstNB_apply, dstN_of_nonneg ei e (by rw [h]; exact Int.natCast_nonneg _)]
  exact clampRow_of_toInt _ _ p h

/-- An update (e, q) of the row scatter that lands at (p, q') has destination row p. -/
theorem rd_of_land1 (ei : IVec S2x1600000 32) (e : Fin 1700000) (q : Fin 128) (p : Fin 100000) (q' : Fin 128)
    (h : scatter_S100000x128_S1700000x1_S1700000x128_1_0_0_1.resultIdx? (ix2 e q) (dstB ei) = some (ix2 p q')) :
    rd ei e = p :=
  rd_of_toInt ei e p (rowScatter_lands scatter_S100000x128_S1700000x1_S1700000x128_1_0_0_1_wf (dstB ei) e q (ix2 p q') h)

theorem rd_of_land2 (ei : IVec S2x1600000 32) (e : Fin 1700000) (q : Fin 1) (p : Fin 100000) (q' : Fin 1)
    (h : scatter_S100000x1_S1700000x1_S1700000x1_1_0_0_1.resultIdx? (ix2 e q) (dstB ei) = some (ix2 p q')) :
    rd ei e = p :=
  rd_of_toInt ei e p (rowScatter_lands scatter_S100000x1_S1700000x1_S1700000x1_1_0_0_1_wf (dstB ei) e q (ix2 p q') h)

end Cert.KernelIdeal.KFacts

end
-- ==== Proof.RefFacts.lean ====
/-
  The reference's stages read at an index, in the kernel program's vocabulary (at the ideal instance).

  The reference computes sources, destinations, degrees and normalising factors by the same operations as the kernel's
  program, so those stages ARE the kernel's terms (`srcB_21` … `dstB_89`, each by unfolding both sides). On top of them:
  * a flat gather of the factors by (moved, clamped) source or destination reads `dv (rs e)`, `dv (rd e)`; their product
    is the edge's normaliser (`ref_norm`);
  * the first layer's message of edge e at column q is  h[rs e, q] · (dv (rs e) · dv (rd e))  with h = x·W1 (`ref_msg1`);
  * a host scatter-sum into zeros reads, at an index, the sum of the updates landing there (`scatterAdd_apply`,
    `ref_agg1`), and the first layer's pre-activation adds the bias of the column (`ref_pre1`).
-/
import proofs.«177966_j7997229105851_2_alg».proof.Proof.RefRead
import proofs.«177966_j7997229105851_2_alg».proof.Proof.KFacts
import Idealize.ShloMosaic.PureOps.Contract

noncomputable section

namespace Cert.RefFacts

open Idealize.ShloMosaic Idealize.ShloMosaic.ValueIdx
open Cert.KernelIdeal Cert.KernelIdeal.Gen Cert.KernelIdeal.KTerms Cert.KernelIdeal.KFacts
open Cert.LibGatherScatterRows Cert.GcnSpec
open Cert.ReferenceIdeal.ReadP

/-- A host scatter-sum read at an index: the operand there plus the sum of the updates that land there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

variable (x : S100000x128.Idx → EReal) (ei : IVec S2x1600000 32) (w1 : S128x128.Idx → EReal) (b1 : S128.Idx → EReal)

/-! ## The reference's index and factor stages are the kernel program's terms -/

theorem srcB_21 : val_main_v21 (F := Ideal) ei = srcB ei := rfl
theorem srcB_36 : val_main_v36 (F := Ideal) ei = srcB ei := rfl
theorem dstNB_28 : val_main_v28 (F := Ideal) ei = dstNB ei := rfl
theorem dinv_15 : val_main_v15 (F := Ideal) ei = dinvV (F := Ideal) ei := rfl
theorem dstB_42 : val_main_v42 (F := Ideal) ei = dstB ei := rfl
theorem srcB_69 : val_main_v69 (F := Ideal) ei = srcB ei := rfl
theorem srcB_84 : val_main_v84 (F := Ideal) ei = srcB ei := rfl
theorem dstNB_76 : val_main_v76 (F := Ideal) ei = dstNB ei := rfl
theorem dinv_63 : val_main_v63 (F := Ideal) ei = dinvV (F := Ideal) ei := rfl
theorem dstB_89 : val_main_v89 (F := Ideal) ei = dstB ei := rfl

/-! ## The first layer -/

theorem ref_factor_src (e : Fin 1700000) : val_main_v22 (F := Ideal) ei (ix1 e) = dv ei (rs ei e) := by
  unfold val_main_v22
  rw [dinv_15, srcB_21]
  exact vecGather_apply (by decide) Cert.ReferenceIdeal.Gen.gather_S100000_S1700000x1_S1700000_n_0_n_n_0_1_1_wf
    (dinvV (F := Ideal) ei) (srcB ei) e

theorem ref_factor_dst (e : Fin 1700000) : val_main_v29 (F := Ideal) ei (ix1 e) = dv ei (rd ei e) := by
  unfold val_main_v29
  rw [dinv_15, dstNB_28]
  exact vecGather_apply (by decide) Cert.ReferenceIdeal.Gen.gather_S100000_S1700000x1_S1700000_n_0_n_n_0_1_1_wf
    (dinvV (F := Ideal) ei) (dstNB ei) e

/-- The edge's normaliser: the source's factor times the destination's. -/
theorem ref_norm (e : Fin 1700000) : val_main_v30 (F := Ideal) ei (ix1 e) = dv ei (rs ei e) * dv ei (rd ei e) := by
  rw [val_main_v30_apply, ref_factor_src, ref_factor_dst]; rfl

/-- The first layer's message of edge e at column q. -/
theorem ref_msg1 (e : Fin 1700000) (q : Fin 128) :
    val_main_v40 (F := Ideal) x ei w1 (ix2 e q)
      = val_main_v7 (F := Ideal) x w1 (ix2 (rs ei e) q) * (dv ei (rs ei e) * dv ei (rd ei e)) := by
  rw [val_main_v40_apply, val_main_v39_apply, val_main_v38_apply]
  have hi : idx_main_v38 (idx_main_v39 (ix2 e q)) = ix1 e := funext fun a => match a with | ⟨0, _⟩ => rfl
  rw [hi, ref_norm]
  have h37 : val_main_v37 (F := Ideal) x ei w1 (ix2 e q) = val_main_v7 (F := Ideal) x w1 (ix2 (rs ei e) q) := by
    unfold val_main_v37
    rw [srcB_36]
    exact rowGather_apply (by decide) Cert.ReferenceIdeal.Gen.gather_S100000x128_S1700000x1_S1700000x128_1_0_n_n_0_1_1128_wf
      (val_main_v7 (F := Ideal) x w1) (srcB ei) e q
  rw [h37]; rfl

/-- The first layer's scatter-sum at (p, q): the sum of the messages landing there. -/
theorem ref_agg1 (p : Fin 100000) (q : Fin 128) :
    val_main_v43 (F := Ideal) x ei w1 (ix2 p q)
      = ∑ j ∈ Finset.univ.filter (fun j => scatter_S100000x128_S1700000x1_S1700000x128_1_0_0_1.resultIdx? j (dstB ei) = some (ix2 p q)),
          val_main_v40 (F := Ideal) x ei w1 j := by
  unfold val_main_v43
  rw [dstB_42, scatterAdd_apply, val_main_v41_apply, val_main_cst_8_apply, Ideal.ofBits_def, Ideal.ofBits_zero_f32, zero_add]
  rfl

/-- The first layer's pre-activation at (p, q): the scatter-sum plus the column's bias. -/
theorem ref_pre1 (p : Fin 100000) (q : Fin 128) :
    val_main_v46 (F := Ideal) x ei w1 b1 (ix2 p q)
      = (∑ j ∈ Finset.univ.filter (fun j => scatter_S100000x128_S1700000x1_S1700000x128_1_0_0_1.resultIdx? j (dstB ei) = some (ix2 p q)),
          val_main_v40 (F := Ideal) x ei w1 j) + b1 (ix1 q) := by
  rw [val_main_v46_apply, ref_agg1, val_main_v45_apply, val_main_v44_apply]
  have hi : idx_main_v44 (idx_main_v45 (ix2 p q)) = ix1 q := funext fun a => match a with | ⟨0, _⟩ => rfl
  rw [hi]; rfl

end Cert.RefFacts

end
-- ==== Proof.RefFacts2.lean ====
/-
  The reference's second layer read at an index, in the kernel program's vocabulary (at the ideal instance).

  * the hidden activation is the positive part of the first layer's pre-activation (`ref_hidden`);
  * the two matrix products read as plain sums over the 128 channels (`ref_proj1`, `ref_proj2`);
  * the second layer's message of edge e is  g[rs e] · (dv (rs e) · dv (rd e))  with g the projected hidden row
    (`ref_msg2`); the scatter-sum at node p is the sum of the messages landing there (`ref_agg2`); the output at p adds
    the second bias (`ref_out`).
-/
import proofs.«177966_j7997229105851_2_alg».proof.Proof.RefFacts

noncomputable section

namespace Cert.RefFacts

open Idealize.ShloMosaic Idealize.ShloMosaic.ValueIdx
open Cert.KernelIdeal Cert.KernelIdeal.Gen Cert.KernelIdeal.KTerms Cert.KernelIdeal.KFacts
open Cert.LibGatherScatterRows Cert.GcnSpec
open Cert.ReferenceIdeal.ReadP

variable (x : S100000x128.Idx → EReal) (ei : IVec S2x1600000 32) (w1 : S128x128.Idx → EReal) (b1 : S128.Idx → EReal)
  (w2 : S128x1.Idx → EReal) (b2 : S1.Idx → EReal)

/-- x·W1 at (p, q): the sum over the channels. -/
theorem ref_proj1 (p : Fin 100000) (q : Fin 128) :
    val_main_v7 (F := Ideal) x w1 (ix2 p q) = ∑ k : Fin 128, x (ix2 p k) * w1 (ix2 k q) := by
  rw [val_main_v7_apply]
  refine Finset.sum_congr rfl fun k _ => ?_
  have hl : lidx_main_v7 (ix2 p q) k = ix2 p k := funext fun a => match a with | ⟨0, _⟩ => rfl | ⟨1, _⟩ => rfl
  have hr : ridx_main_v7 (ix2 p q) k = ix2 k q := funext fun a => match a with | ⟨0, _⟩ => rfl | ⟨1, _⟩ => rfl
  rw [hl, hr]

/-- The hidden activation: the positive part of the pre-activation. -/
theorem ref_hidden (p : Fin 100000) (k : Fin 128) :
    val_main_v47 (F := Ideal) x ei w1 b1 (ix2 p k) = max (val_main_v46 (F := Ideal) x ei w1 b1 (ix2 p k)) 0 := by
  rw [val_main_v47_apply, val_main_call1_v0_apply, val_main_call1_cst_apply, Ideal.ofBits_def, Ideal.ofBits_zero_f32]
  rfl

/-- The projected hidden row at node p: the sum over the channels. -/
theorem ref_proj2 (p : Fin 100000) :
    val_main_v55 (F := Ideal) x ei w1 b1 w2 (ix2 p (0 : Fin 1))
      = ∑ k : Fin 128, val_main_v47 (F := Ideal) x ei w1 b1 (ix2 p k) * w2 (ix2 k (0 : Fin 1)) := by
  rw [val_main_v55_apply]
  refine Finset.sum_congr rfl fun k _ => ?_
  have hl : lidx_main_v55 (ix2 p (0 : Fin 1)) k = ix2 p k := funext fun a => match a with | ⟨0, _⟩ => rfl | ⟨1, _⟩ => rfl
  have hr : ridx_main_v55 (ix2 p (0 : Fin 1)) k = ix2 k (0 : Fin 1) := funext fun a => match a with | ⟨0, _⟩ => rfl | ⟨1, _⟩ => rfl
  rw [hl, hr]

theorem ref_factor_src2 (e : Fin 1700000) : val_main_v70 (F := Ideal) ei (ix1 e) = dv ei (rs ei e) := by
  unfold val_main_v70
  rw [dinv_63, srcB_69]
  exact vecGather_apply (by decide) Cert.ReferenceIdeal.Gen.gather_S100000_S1700000x1_S1700000_n_0_n_n_0_1_1_wf
    (dinvV (F := Ideal) ei) (srcB ei) e

theorem ref_factor_dst2 (e : Fin 1700000) : val_main_v77 (F := Ideal) ei (ix1 e) = dv ei (rd ei e) := by
  unfold val_main_v77
  rw [dinv_63, dstNB_76]
  exact vecGather_apply (by decide) Cert.ReferenceIdeal.Gen.gather_S100000_S1700000x1_S1700000_n_0_n_n_0_1_1_wf
    (dinvV (F := Ideal) ei) (dstNB ei) e

theorem ref_norm2 (e : Fin 1700000) : val_main_v78 (F := Ideal) ei (ix1 e) = dv ei (rs ei e) * dv ei (rd ei e) := by
  rw [val_main_v78_apply, ref_factor_src2, ref_factor_dst2]; rfl

/-- The second layer's message of edge e. -/
theorem ref_msg2 (e : Fin 1700000) :
    val_main_v87 (F := Ideal) x ei w1 b1 w2 (ix2 e (0 : Fin 1))
      = val_main_v55 (F := Ideal) x ei w1 b1 w2 (ix2 (rs ei e) (0 : Fin 1)) * (dv ei (rs ei e) * dv ei (rd ei e)) := by
  rw [val_main_v87_apply, val_main_v86_apply]
  have hi : idx_main_v86 (ix2 e (0 : Fin 1)) = ix1 e := funext fun a => match a with | ⟨0, _⟩ => rfl
  rw [hi, ref_norm2]
  have h85 : val_main_v85 (F := Ideal) x ei w1 b1 w2 (ix2 e (0 : Fin 1))
      = val_main_v55 (F := Ideal) x ei w1 b1 w2 (ix2 (rs ei e) (0 : Fin 1)) := by
    unfold val_main_v85
    rw [srcB_84]
    exact rowGather_apply (by decide) Cert.ReferenceIdeal.Gen.gather_S100000x1_S1700000x1_S1700000x1_1_0_n_n_0_1_11_wf
      (val_main_v55 (F := Ideal) x ei w1 b1 w2) (srcB ei) e 0
  rw [h85]; rfl

/-- The second layer's scatter-sum at node p: the sum of the messages landing there. -/
theorem ref_agg2 (p : Fin 100000) :
    val_main_v90 (F := Ideal) x ei w1 b1 w2 (ix2 p (0 : Fin 1))
      = ∑ j ∈ Finset.univ.filter (fun j => scatter_S100000x1_S1700000x1_S1700000x1_1_0_0_1.resultIdx? j (dstB ei) = some (ix2 p (0 : Fin 1))),
          val_main_v87 (F := Ideal) x ei w1 b1 w2 j := by
  unfold val_main_v90
  rw [dstB_89, scatterAdd_apply, val_main_v88_apply, val_main_cst_19_apply, Ideal.ofBits_def, Ideal.ofBits_zero_f32, zero_add]
  rfl

/-- The reference's output at node p: the scatter-sum plus the second bias. -/
theorem ref_out (p : Fin 100000) :
    val_main_v94 (F := Ideal) x ei w1 b1 w2 b2 (ix1 p)
      = (∑ j ∈ Finset.univ.filter (fun j => scatter_S100000x1_S1700000x1_S1700000x1_1_0_0_1.resultIdx? j (dstB ei) = some (ix2 p (0 : Fin 1))),
          val_main_v87 (F := Ideal) x ei w1 b1 w2 j) + b2 (ix1 (0 : Fin 1)) := by
  rw [val_main_v94_apply]
  have hi : idx_main_v94 (ix1 p) = ix2 p (0 : Fin 1) :=
    funext fun a => match a with | ⟨0, _⟩ => Fin.ext (Nat.div_one _) | ⟨1, _⟩ => rfl
  rw [hi, val_main_v93_apply, ref_agg2, val_main_v92_apply, val_main_v91_apply]
  have hj : idx_main_v91 (idx_main_v92 (ix2 p (0 : Fin 1))) = ix1 (0 : Fin 1) := funext fun a => match a with | ⟨0, _⟩ => rfl
  rw [hj]; rfl

end Cert.RefFacts

end
-- ==== Proof.Bridge.lean ====
/-
  The kernel's result and the reference's are one function of the arguments (at the ideal instance).

  Writing dv for the nodes' normalising factors, h = x·W1, and "e → p" for "edge e's update lands at node p":
  the reference's first layer at (p, q) is        ∑_{e → p} h[rs e, q] · (dv (rs e) · dv (rd e))  + b1[q],
  the kernel's is                                (∑_{e → p} (h[rs e, q] · dv (rs e))) · dv p       + b1[q];
  every update landing at p has destination row rd e = p, and dv p is a nonnegative real, so the common factor dv p
  moves out of the sum (`layer1`). The hidden rows then agree, so do their projections on the output column
  (`hidden_eq`), and the second layer is the same step once more on a single column (`bridge`).
  Nothing here needs the inputs to be finite: only the factors dv have to be nonnegative reals, and they always are.
-/
import proofs.«177966_j7997229105851_2_alg».proof.Proof.RefFacts2

noncomputable section

namespace Cert.Bridge

open Idealize.ShloMosaic Idealize.ShloMosaic.ValueIdx
open Cert.KernelIdeal Cert.KernelIdeal.Gen Cert.KernelIdeal.KTerms Cert.KernelIdeal.KFacts
open Cert.LibGatherScatterRows Cert.GcnSpec Cert.RefFacts
open Cert.ReferenceIdeal.ReadP

variable (x : S100000x128.Idx → EReal) (ei : IVec S2x1600000 32) (w1 : S128x128.Idx → EReal) (b1 : S128.Idx → EReal)
  (w2 : S128x1.Idx → EReal) (b2 : S1.Idx → EReal)

/-- The zero matrix reads 0. -/
theorem zeroMat_apply (i : S100000x128.Idx) :
    broadcastInDim S100000x128 ![] bcast_S_S100000x128 (constant (F := Ideal) S_ .f32 0x00000000#32) i = 0 := by
  rw [broadcastInDim_apply _ bcast_S_S100000x128 (constant (F := Ideal) S_ .f32 0x00000000#32) i ix0 (fun a => a.elim0),
    constant_apply]
  exact Ideal.ofBits_zero_f32

/-- The zero column reads 0. -/
theorem zeroCol_apply (i : S100000x1.Idx) :
    broadcastInDim S100000x1 ![] bcast_S_S100000x1 (constant (F := Ideal) S_ .f32 0x00000000#32) i = 0 := by
  rw [broadcastInDim_apply _ bcast_S_S100000x1 (constant (F := Ideal) S_ .f32 0x00000000#32) i ix0 (fun a => a.elim0),
    constant_apply]
  exact Ideal.ofBits_zero_f32

/-- The first bias as a row, at (0, k). -/
theorem b1row_apply (k : Fin 128) : b1row (F := Ideal) b1 (ix2 (0 : Fin 1) k) = b1 (ix1 k) := by
  unfold b1row
  exact shapeCast_apply _ shapeCasts_S128_S1x128 (ix2 (0 : Fin 1) k) (ix1 k)
    (by rw [Shape.rowMajor_val_two, Shape.rowMajor_val_one]; show k.val = 0 * 128 + k.val; omega)

/-- The second bias broadcast to a column, at (p, 0). -/
theorem b2col_apply (p : Fin 100000) :
    broadcastInDim S100000x1 ![0, 1] bcast_S1x1_S100000x1_0_1 (shapeCast S1x1 b2 shapeCasts_S1_S1x1) (ix2 p (0 : Fin 1))
      = b2 (ix1 (0 : Fin 1)) := by
  rw [broadcastInDim_apply _ bcast_S1x1_S100000x1_0_1 (shapeCast S1x1 b2 shapeCasts_S1_S1x1) (ix2 p (0 : Fin 1))
    (ix2 (0 : Fin 1) (0 : Fin 1)) (fun a => match a with
      | ⟨0, _⟩ => by show (0 : Nat) = if (1 : Nat) = 1 then 0 else p.val; rw [if_pos rfl]
      | ⟨1, _⟩ => by show (0 : Nat) = if (1 : Nat) = 1 then 0 else 0; rw [if_pos rfl])]
  exact shapeCast_apply _ shapeCasts_S1_S1x1 (ix2 (0 : Fin 1) (0 : Fin 1)) (ix1 (0 : Fin 1))
    (by rw [Shape.rowMajor_val_two, Shape.rowMajor_val_one]; rfl)

/-- The kernel's first aggregate at (p, q): the sum of the gathered rows landing there. -/
theorem agg1_apply (R0 : S100000x128.Idx → EReal) (p : Fin 100000) (q : Fin 128) :
    agg1 (F := Ideal) ei R0 (ix2 p q)
      = ∑ j ∈ Finset.univ.filter (fun j => scatter_S100000x128_S1700000x1_S1700000x128_1_0_0_1.resultIdx? j (dstB ei) = some (ix2 p q)),
          Host.gather gather_S100000x128_S1700000x1_S1700000x128_1_0_n_n_0_1_1128 R0 (srcB ei) j := by
  unfold agg1
  rw [scatterAdd_apply, zeroMat_apply, zero_add]
  rfl

/-- THE FIRST LAYER: the reference's pre-activation is the kernel's aggregate scaled by the node's factor, plus the bias. -/
theorem layer1 (R0 : S100000x128.Idx → EReal)
    (h0 : ∀ (p : Fin 100000) (q : Fin 128), R0 (ix2 p q) = projScale x w1 (dinv2 (F := Ideal) ei) p q)
    (p : Fin 100000) (q : Fin 128) :
    val_main_v46 (F := Ideal) x ei w1 b1 (ix2 p q) = agg1 (F := Ideal) ei R0 (ix2 p q) * dv ei p + b1 (ix1 q) := by
  rw [ref_pre1, agg1_apply]
  refine congrArg (fun t => t + b1 (ix1 q)) ?_
  calc (∑ j ∈ Finset.univ.filter (fun j => scatter_S100000x128_S1700000x1_S1700000x128_1_0_0_1.resultIdx? j (dstB ei) = some (ix2 p q)),
          val_main_v40 (F := Ideal) x ei w1 j)
      = ∑ j ∈ Finset.univ.filter (fun j => scatter_S100000x128_S1700000x1_S1700000x128_1_0_0_1.resultIdx? j (dstB ei) = some (ix2 p q)),
          val_main_v7 (F := Ideal) x w1 (ix2 (rs ei (j 0)) (j 1)) * (dv ei (rs ei (j 0)) * dv ei (rd ei (j 0))) := by
        refine Finset.sum_congr rfl fun j _ => ?_
        obtain ⟨e, q', rfl⟩ : ∃ (e : Fin 1700000) (q' : Fin 128), j = ix2 e q' := ⟨j 0, j 1, eq_ix2 j⟩
        exact ref_msg1 x ei w1 e q'
    _ = (∑ j ∈ Finset.univ.filter (fun j => scatter_S100000x128_S1700000x1_S1700000x128_1_0_0_1.resultIdx? j (dstB ei) = some (ix2 p q)),
          val_main_v7 (F := Ideal) x w1 (ix2 (rs ei (j 0)) (j 1)) * dv ei (rs ei (j 0))) * dv ei p :=
        sum_scaled (fun j => scatter_S100000x128_S1700000x1_S1700000x128_1_0_0_1.resultIdx? j (dstB ei)) (ix2 p q)
          (fun j => val_main_v7 (F := Ideal) x w1 (ix2 (rs ei (j 0)) (j 1))) (fun j => dv ei (rs ei (j 0)))
          (fun j => dv ei (rd ei (j 0))) (dv ei p) (dv_nonneg ei p) (dv_ne_top ei p) (by
            intro j hj
            obtain ⟨e, q', rfl⟩ : ∃ (e : Fin 1700000) (q' : Fin 128), j = ix2 e q' := ⟨j 0, j 1, eq_ix2 j⟩
            show dv ei (rd ei e) = dv ei p
            rw [rd_of_land1 ei e q' p q hj])
    _ = (∑ j ∈ Finset.univ.filter (fun j => scatter_S100000x128_S1700000x1_S1700000x128_1_0_0_1.resultIdx? j (dstB ei) = some (ix2 p q)),
          Host.gather gather_S100000x128_S1700000x1_S1700000x128_1_0_n_n_0_1_1128 R0 (srcB ei) j) * dv ei p := by
        refine congrArg (fun t => t * dv ei p) ?_
        refine Finset.sum_congr rfl fun j _ => ?_
        obtain ⟨e, q', rfl⟩ : ∃ (e : Fin 1700000) (q' : Fin 128), j = ix2 e q' := ⟨j 0, j 1, eq_ix2 j⟩
        show val_main_v7 (F := Ideal) x w1 (ix2 (rs ei e) q') * dv ei (rs ei e) = _
        rw [gatherRows_apply, h0]
        unfold projScale
        rw [dinv2_apply, ref_proj1]

/-- The projected hidden row scaled by the node's factor is the kernel's second region's value. -/
theorem hidden_eq (R0 : S100000x128.Idx → EReal)
    (h0 : ∀ (p : Fin 100000) (q : Fin 128), R0 (ix2 p q) = projScale x w1 (dinv2 (F := Ideal) ei) p q) (p : Fin 100000) :
    val_main_v55 (F := Ideal) x ei w1 b1 w2 (ix2 p (0 : Fin 1)) * dv ei p
      = finishProj (agg1 (F := Ideal) ei R0) (dinv2 (F := Ideal) ei) (b1row (F := Ideal) b1) w2 p := by
  unfold finishProj
  rw [dinv2_apply, ref_proj2]
  refine congrArg (fun t => t * dv ei p) ?_
  refine Finset.sum_congr rfl fun k _ => ?_
  rw [ref_hidden, layer1 x ei w1 b1 R0 h0 p k, b1row_apply]

/-- THE RESULT: the kernel's output vector is the reference's. -/
theorem bridge (R0 : S100000x128.Idx → EReal) (R1 : S100000x1.Idx → EReal)
    (h0 : ∀ (p : Fin 100000) (q : Fin 128), R0 (ix2 p q) = projScale x w1 (dinv2 (F := Ideal) ei) p q)
    (h1 : ∀ p : Fin 100000, R1 (ix2 p (0 : Fin 1))
      = finishProj (agg1 (F := Ideal) ei R0) (dinv2 (F := Ideal) ei) (b1row (F := Ideal) b1) w2 p) :
    outV (F := Ideal) ei b2 R1 = val_main_v94 (F := Ideal) x ei w1 b1 w2 b2 := by
  funext i
  obtain ⟨p, rfl⟩ : ∃ p : Fin 100000, i = ix1 p := ⟨i 0, eq_ix1 i⟩
  rw [ref_out]
  unfold outV
  rw [shapeCast_apply _ shapeCasts_S100000x1_S100000 (ix1 p) (ix2 p (0 : Fin 1))
    (by rw [Shape.rowMajor_val_two, Shape.rowMajor_val_one]; show p.val * 1 + 0 = p.val; omega)]
  rw [addf_apply, mulf_apply, scatterAdd_apply, zeroCol_apply, zero_add, dinv2_apply, b2col_apply]
  refine congrArg (fun t => t + b2 (ix1 (0 : Fin 1))) ?_
  symm
  calc (∑ j ∈ Finset.univ.filter (fun j => scatter_S100000x1_S1700000x1_S1700000x1_1_0_0_1.resultIdx? j (dstB ei) = some (ix2 p (0 : Fin 1))),
          val_main_v87 (F := Ideal) x ei w1 b1 w2 j)
      = ∑ j ∈ Finset.univ.filter (fun j => scatter_S100000x1_S1700000x1_S1700000x1_1_0_0_1.resultIdx? j (dstB ei) = some (ix2 p (0 : Fin 1))),
          val_main_v55 (F := Ideal) x ei w1 b1 w2 (ix2 (rs ei (j 0)) (0 : Fin 1)) * (dv ei (rs ei (j 0)) * dv ei (rd ei (j 0))) := by
        refine Finset.sum_congr rfl fun j _ => ?_
        obtain ⟨e, q', rfl⟩ : ∃ (e : Fin 1700000) (q' : Fin 1), j = ix2 e q' := ⟨j 0, j 1, eq_ix2 j⟩
        obtain rfl : q' = 0 := Subsingleton.elim _ _
        exact ref_msg2 x ei w1 b1 w2 e
    _ = (∑ j ∈ Finset.univ.filter (fun j => scatter_S100000x1_S1700000x1_S1700000x1_1_0_0_1.resultIdx? j (dstB ei) = some (ix2 p (0 : Fin 1))),
          val_main_v55 (F := Ideal) x ei w1 b1 w2 (ix2 (rs ei (j 0)) (0 : Fin 1)) * dv ei (rs ei (j 0))) * dv ei p :=
        sum_scaled (fun j => scatter_S100000x1_S1700000x1_S1700000x1_1_0_0_1.resultIdx? j (dstB ei)) (ix2 p (0 : Fin 1))
          (fun j => val_main_v55 (F := Ideal) x ei w1 b1 w2 (ix2 (rs ei (j 0)) (0 : Fin 1))) (fun j => dv ei (rs ei (j 0)))
          (fun j => dv ei (rd ei (j 0))) (dv ei p) (dv_nonneg ei p) (dv_ne_top ei p) (by
            intro j hj
            obtain ⟨e, q', rfl⟩ : ∃ (e : Fin 1700000) (q' : Fin 1), j = ix2 e q' := ⟨j 0, j 1, eq_ix2 j⟩
            show dv ei (rd ei e) = dv ei p
            rw [rd_of_land2 ei e q' p 0 hj])
    _ = (∑ j ∈ Finset.univ.filter (fun j => scatter_S100000x1_S1700000x1_S1700000x1_1_0_0_1.resultIdx? j (dstB ei) = some (ix2 p (0 : Fin 1))),
          Host.gather gather_S100000x1_S1700000x1_S1700000x1_1_0_n_n_0_1_11 R1 (srcB ei) j) * dv ei p := by
        refine congrArg (fun t => t * dv ei p) ?_
        refine Finset.sum_congr rfl fun j _ => ?_
        obtain ⟨e, q', rfl⟩ : ∃ (e : Fin 1700000) (q' : Fin 1), j = ix2 e q' := ⟨j 0, j 1, eq_ix2 j⟩
        obtain rfl : q' = 0 := Subsingleton.elim _ _
        show val_main_v55 (F := Ideal) x ei w1 b1 w2 (ix2 (rs ei e) (0 : Fin 1)) * dv ei (rs ei e) = _
        rw [gatherCol_apply, h1, hidden_eq x ei w1 b1 w2 R0 h0]

end Cert.Bridge

end
-- ==== Proof.lean ====
/-
  A two-layer graph convolution (linear map, degree-normalised scatter-sum over the edges with self loops, bias, positive
  part, linear map to one column, scatter-sum again, bias) computed two ways, and the proof that the two programs are one
  function of their arguments on the extended reals.

  The reference multiplies every edge's message by the edge's normaliser dinv[src]·dinv[dst] before summing the messages
  of a destination. The kernel's program scales the rows by dinv[src] inside its first dense region, sums the gathered
  rows per destination on the host, and multiplies the sum by dinv[dst] inside its second dense region (and once more on
  the host for the second layer). The two agree because every message summed at a destination d carries the same factor
  dinv[d], and dinv[d] — the inverse square root of a degree where it is positive, zero elsewhere — is always a
  nonnegative real, by which multiplication distributes over any sum of extended reals (Proof/Bridge.lean). No
  finiteness of the inputs is used.

  The frames of the two kernel programs are the generated ones; the reference's frame is its run with the result
  dropped. The kernel program's run names its result as the last host stretch's value over the second region's array
  (Proof/KRun.lean, Proof/KHost.lean), the regions' arrays are read index by index (Proof/KRegion0.lean,
  Proof/KRegion1.lean, Proof/KValue.lean), and the reference's result is its last stage (Proof/RefRead.lean).
-/
import proofs.«177966_j7997229105851_2_alg».proof.Defs
import proofs.«177966_j7997229105851_2_alg».proof.Proof.Gen.Kernel
import proofs.«177966_j7997229105851_2_alg».proof.Proof.Gen.Kernel.Skeleton
import proofs.«177966_j7997229105851_2_alg».proof.Proof.Gen.Kernel.Launch
import proofs.«177966_j7997229105851_2_alg».proof.Proof.Gen.Kernel.Points
import proofs.«177966_j7997229105851_2_alg».proof.Proof.Gen.Kernel.Frame
import proofs.«177966_j7997229105851_2_alg».proof.Proof.Gen.KernelIdeal
import proofs.«177966_j7997229105851_2_alg».proof.Proof.Gen.KernelIdeal.Skeleton
import proofs.«177966_j7997229105851_2_alg».proof.Proof.Gen.KernelIdeal.Launch
import proofs.«177966_j7997229105851_2_alg».proof.Proof.Gen.KernelIdeal.Points
import proofs.«177966_j7997229105851_2_alg».proof.Proof.Gen.KernelIdeal.Frame
import proofs.«177966_j7997229105851_2_alg».proof.Proof.Gen.ReferenceIdeal
import proofs.«177966_j7997229105851_2_alg».proof.Proof.Gen.Pre_finite_inputs
import proofs.«177966_j7997229105851_2_alg».proof.Proof.RefRun
import proofs.«177966_j7997229105851_2_alg».proof.Proof.RefRead
import proofs.«177966_j7997229105851_2_alg».proof.Proof.KRun
import proofs.«177966_j7997229105851_2_alg».proof.Proof.KValue
import proofs.«177966_j7997229105851_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealized kernel program is the kernel program's own text read on the extended reals: nothing was rewritten. -/
theorem preserves : Cert.preserves_Kernel_KernelIdeal := trivial

/-- Both programs end, from memories agreeing on the arguments, with the same result vector: the kernel's program at the
    last host stretch's value over its second region's array, the reference at its last stage, and these are one function
    of the arguments. -/
theorem algebraic : Cert.algebraic_KernelIdeal_ReferenceIdeal := by
  intro m ρ m' ρ' _ hagree
  refine ⟨fun c => Cert.KernelIdeal.KTerms.outV (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (Cert.KernelIdeal.KValue.R1 m ρ c), ?_, ?_⟩
  · exact (θ_run Cert.KernelIdeal.defs _ _).mono
      (fun r h c => ⟨(h c).1.trans (Cert.KernelIdeal.KHost.W5_out m ρ c), (h c).2⟩)
      (Cert.KernelIdeal.KRun.run_value m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, (hagree c).1, (hagree c).2.1, (hagree c).2.2.1, (hagree c).2.2.2.1,
      (hagree c).2.2.2.2.1, (hagree c).2.2.2.2.2]
    exact (Cert.Bridge.bridge _ _ _ _ _ _ (Cert.KernelIdeal.KValue.R0 m ρ c) (Cert.KernelIdeal.KValue.R1 m ρ c)
      (Cert.KernelIdeal.KValue.R0_apply m ρ c) (Cert.KernelIdeal.KValue.R1_apply m ρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
